-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v77)) (v1 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_v97) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v131) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg15 : FVec F S128x128 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  main_v73

def fn_part3 {F : FTy → Type} [FloatOps F] (main_arg12 : FVec F S128x128 .f32) (main_arg13 : FVec F S128x128 .f32) (main_arg14 : FVec F S128 .f32) (main_arg15 : FVec F S128x128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_v63 main_v67

def fn_part2 {F : FTy → Type} [FloatOps F] (main_arg8 : FVec F S128 .f32) (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_arg15 : FVec F S128x128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_v48 main_v49 main_v50

def fn_part1 {F : FTy → Type} [FloatOps F] (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_arg15 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x128 .f32) (main_arg1 : FVec F S50000x128 .f32) (main_arg2 : IVec S2x800000 32) (main_arg3 : FVec F S800000 .f32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_arg15 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S800000 .f32 := Host.absf main_arg3
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S_ : Shape := ⟨0, ![]⟩
abbrev S1x800000 : Shape := ⟨2, ![1, 800000]⟩
abbrev S50000 : Shape := ⟨1, ![50000]⟩
abbrev S800000x1 : Shape := ⟨2, ![800000, 1]⟩
abbrev S800000x128 : Shape := ⟨2, ![800000, 128]⟩
abbrev S1x128 : Shape := ⟨2, ![1, 128]⟩
abbrev S50000x1 : Shape := ⟨2, ![50000, 1]⟩
abbrev S5000x128 : Shape := ⟨2, ![5000, 128]⟩
abbrev S5000x1 : Shape := ⟨2, ![5000, 1]⟩

abbrev nBuf : Space → Nat
  | .hbm => 132
  | .vmem => 44
  | .smem => 0
  | _ => 0

abbrev hbmTy0_0 (i : Nat) : BufTy := match i % 128 with
  | 0 => ⟨S50000x128, .f32⟩
  | 1 => ⟨S50000x128, .f32⟩
  | 2 => ⟨S2x800000, .i32⟩
  | 3 => ⟨S800000, .f32⟩
  | 4 => ⟨S128x128, .f32⟩
  | 5 => ⟨S128, .f32⟩
  | 6 => ⟨S128x128, .f32⟩
  | 7 => ⟨S128x128, .f32⟩
  | 8 => ⟨S128, .f32⟩
  | 9 => ⟨S128x128, .f32⟩
  | 10 => ⟨S128x128, .f32⟩
  | 11 => ⟨S128, .f32⟩
  | 12 => ⟨S128x128, .f32⟩
  | 13 => ⟨S128x128, .f32⟩
  | 14 => ⟨S128, .f32⟩
  | 15 => ⟨S128x128, .f32⟩
  | 16 => ⟨S800000, .f32⟩
  | 17 => ⟨S800000, .f32⟩
  | 18 => ⟨S_, .f32⟩
  | 19 => ⟨S800000, .f32⟩
  | 20 => ⟨S800000, .f32⟩
  | 21 => ⟨S_, .f32⟩
  | 22 => ⟨S800000, .f32⟩
  | 23 => ⟨S800000, .f32⟩
  | 24 => ⟨S1x800000, .i32⟩
  | 25 => ⟨S800000, .i32⟩
  | 26 => ⟨S1x800000, .i32⟩
  | 27 => ⟨S800000, .i32⟩
  | 28 => ⟨S_, .f32⟩
  | 29 => ⟨S800000, .f32⟩
  | 30 => ⟨S_, .f32⟩
  | 31 => ⟨S50000, .f32⟩
  | 32 => ⟨S800000x1, .i32⟩
  | 33 => ⟨S50000, .f32⟩
  | 34 => ⟨S_, .f32⟩
  | 35 => ⟨S800000, .f32⟩
  | 36 => ⟨S_, .f32⟩
  | 37 => ⟨S50000, .f32⟩
  | 38 => ⟨S800000x1, .i32⟩
  | 39 => ⟨S50000, .f32⟩
  | 40 => ⟨S50000x128, .bf16⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x128, .bf16⟩
  | 50 => ⟨S800000x128, .f32⟩
  | 51 => ⟨S800000x1, .f32⟩
  | 52 => ⟨S800000x128, .f32⟩
  | 53 => ⟨S800000x128, .f32⟩
  | 54 => ⟨S_, .f32⟩
  | 55 => ⟨S50000x128, .f32⟩
  | 56 => ⟨S800000x1, .i32⟩
  | 57 => ⟨S50000x128, .f32⟩
  | 58 => ⟨S128x128, .f32⟩
  | 59 => ⟨S128x128, .f32⟩
  | 60 => ⟨S1x128, .f32⟩
  | 61 => ⟨S50000x1, .f32⟩
  | 62 => ⟨S50000x128, .f32⟩
  | 63 => ⟨S50000x128, .bf16⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x128, .bf16⟩
  | 73 => ⟨S800000x128, .f32⟩
  | 74 => ⟨S800000x1, .f32⟩
  | 75 => ⟨S800000x128, .f32⟩
  | 76 => ⟨S800000x128, .f32⟩
  | 77 => ⟨S_, .f32⟩
  | 78 => ⟨S50000x128, .f32⟩
  | 79 => ⟨S800000x1, .i32⟩
  | 80 => ⟨S50000x128, .f32⟩
  | 81 => ⟨S128x128, .f32⟩
  | 82 => ⟨S128x128, .f32⟩
  | 83 => ⟨S1x128, .f32⟩
  | 84 => ⟨S50000x1, .f32⟩
  | 85 => ⟨S50000x128, .f32⟩
  | 86 => ⟨S50000x128, .bf16⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x128, .bf16⟩
  | 96 => ⟨S800000x128, .f32⟩
  | 97 => ⟨S800000x1, .f32⟩
  | 98 => ⟨S800000x128, .f32⟩
  | 99 => ⟨S800000x128, .f32⟩
  | 100 => ⟨S_, .f32⟩
  | 101 => ⟨S50000x128, .f32⟩
  | 102 => ⟨S800000x1, .i32⟩
  | 103 => ⟨S50000x128, .f32⟩
  | 104 => ⟨S128x128, .f32⟩
  | 105 => ⟨S128x128, .f32⟩
  | 106 => ⟨S1x128, .f32⟩
  | 107 => ⟨S50000x1, .f32⟩
  | 108 => ⟨S50000x128, .f32⟩
  | 109 => ⟨S50000x128, .bf16⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000x128, .bf16⟩
  | 119 => ⟨S800000x128, .f32⟩
  | 120 => ⟨S800000x1, .f32⟩
  | 121 => ⟨S800000x128, .f32⟩
  | 122 => ⟨S800000x128, .f32⟩
  | 123 => ⟨S_, .f32⟩
  | 124 => ⟨S50000x128, .f32⟩
  | 125 => ⟨S800000x1, .i32⟩
  | 126 => ⟨S50000x128, .f32⟩
  | 127 => ⟨S128x128, .f32⟩
  | _ => ⟨S50000x128, .f32⟩

abbrev hbmTy0_1 (i : Nat) : BufTy := match i % 128 with
  | 0 => ⟨S128x128, .f32⟩
  | 1 => ⟨S1x128, .f32⟩
  | 2 => ⟨S50000x1, .f32⟩
  | 3 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x1, .f32⟩
  | .local _ .vmem, ⟨27, _⟩ => ⟨S5000x1, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x1, .f32⟩
  | .local _ .vmem, ⟨38, _⟩ => ⟨S5000x1, .f32⟩
  | .local _ .vmem, ⟨39, _⟩ => ⟨S128x128, .f32⟩
  | .local _ .vmem, ⟨40, _⟩ => ⟨S1x128, .f32⟩
  | .local _ .vmem, ⟨41, _⟩ => ⟨S128x128, .f32⟩
  | .local _ .vmem, ⟨42, _⟩ => ⟨S5000x128, .f32⟩
  | .local _ .vmem, ⟨43, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_cst_4 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_6 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_7 : Ref sig .tc := ⟨.hbm, 64, rfl⟩
abbrev main_v39 : Ref sig .tc := ⟨.hbm, 65, rfl⟩
abbrev main_v40 : Ref sig .tc := ⟨.hbm, 66, rfl⟩
abbrev main_c_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_9 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_10 : Ref sig .tc := ⟨.hbm, 87, rfl⟩
abbrev main_v59 : Ref sig .tc := ⟨.hbm, 88, rfl⟩
abbrev main_v60 : Ref sig .tc := ⟨.hbm, 89, rfl⟩
abbrev main_c_11 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_12 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_13 : Ref sig .tc := ⟨.hbm, 110, rfl⟩
abbrev main_v79 : Ref sig .tc := ⟨.hbm, 111, rfl⟩
abbrev main_v80 : Ref sig .tc := ⟨.hbm, 112, rfl⟩
abbrev main_c_14 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_15 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  bcast_S_S800000 : S_.BroadcastsInDim S800000 (![] : Fin 0 → Fin S800000.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bitsLt_bf16_f32 : FTy.bits .bf16 < FTy.bits .f32
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S128x128_S128x128_1_0 : S128x128.Transposes [1, 0] S128x128
  shapeCasts_S128_S1x128 : S128.ShapeCasts S1x128
  shapeCasts_S50000_S50000x1 : S50000.ShapeCasts S50000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v36) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v37) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v56) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v53) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v55) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v54) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v57) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v57) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v72) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v76) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v73) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v75) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v74) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v77) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v37) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v92) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v96) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v93) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v95) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v94) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v97) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S_ : Shape := ⟨0, ![]⟩
abbrev S1x800000 : Shape := ⟨2, ![1, 800000]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 178
  | .vmem => 0
  | .smem => 0
  | _ => 0

abbrev hbmTy0_0 (i : Nat) : BufTy := match i % 128 with
  | 0 => ⟨S50000x128, .f32⟩
  | 1 => ⟨S50000x128, .f32⟩
  | 2 => ⟨S2x800000, .i32⟩
  | 3 => ⟨S800000, .f32⟩
  | 4 => ⟨S128x128, .f32⟩
  | 5 => ⟨S128, .f32⟩
  | 6 => ⟨S128x128, .f32⟩
  | 7 => ⟨S128x128, .f32⟩
  | 8 => ⟨S128, .f32⟩
  | 9 => ⟨S128x128, .f32⟩
  | 10 => ⟨S128x128, .f32⟩
  | 11 => ⟨S128, .f32⟩
  | 12 => ⟨S128x128, .f32⟩
  | 13 => ⟨S128x128, .f32⟩
  | 14 => ⟨S128, .f32⟩
  | 15 => ⟨S128x128, .f32⟩
  | 16 => ⟨S800000, .f32⟩
  | 17 => ⟨S800000, .f32⟩
  | 18 => ⟨S_, .f32⟩
  | 19 => ⟨S800000, .f32⟩
  | 20 => ⟨S800000, .f32⟩
  | 21 => ⟨S_, .f32⟩
  | 22 => ⟨S800000, .f32⟩
  | 23 => ⟨S800000, .f32⟩
  | 24 => ⟨S1x800000, .i32⟩
  | 25 => ⟨S800000, .i32⟩
  | 26 => ⟨S1x800000, .i32⟩
  | 27 => ⟨S800000, .i32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x128, .f32⟩
  | 37 => ⟨S800000x1, .f32⟩
  | 38 => ⟨S800000x128, .f32⟩
  | 39 => ⟨S800000x128, .f32⟩
  | 40 => ⟨S_, .f32⟩
  | 41 => ⟨S50000x128, .f32⟩
  | 42 => ⟨S800000x1, .i32⟩
  | 43 => ⟨S50000x128, .f32⟩
  | 44 => ⟨S_, .f32⟩
  | 45 => ⟨S800000, .f32⟩
  | 46 => ⟨S_, .f32⟩
  | 47 => ⟨S50000, .f32⟩
  | 48 => ⟨S800000x1, .i32⟩
  | 49 => ⟨S50000, .f32⟩
  | 50 => ⟨S_, .f32⟩
  | 51 => ⟨S50000, .f32⟩
  | 52 => ⟨S50000, .f32⟩
  | 53 => ⟨S50000x1, .f32⟩
  | 54 => ⟨S50000x128, .f32⟩
  | 55 => ⟨S50000x128, .f32⟩
  | 56 => ⟨S128x128, .f32⟩
  | 57 => ⟨S50000x128, .f32⟩
  | 58 => ⟨S1x128, .f32⟩
  | 59 => ⟨S50000x128, .f32⟩
  | 60 => ⟨S50000x128, .f32⟩
  | 61 => ⟨S128x128, .f32⟩
  | 62 => ⟨S50000x128, .f32⟩
  | 63 => ⟨S50000x128, .f32⟩
  | 64 => ⟨S_, .f32⟩
  | 65 => ⟨S50000x128, .f32⟩
  | 66 => ⟨S50000x128, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S800000x128, .f32⟩
  | 76 => ⟨S800000x1, .f32⟩
  | 77 => ⟨S800000x128, .f32⟩
  | 78 => ⟨S800000x128, .f32⟩
  | 79 => ⟨S_, .f32⟩
  | 80 => ⟨S50000x128, .f32⟩
  | 81 => ⟨S800000x1, .i32⟩
  | 82 => ⟨S50000x128, .f32⟩
  | 83 => ⟨S_, .f32⟩
  | 84 => ⟨S800000, .f32⟩
  | 85 => ⟨S_, .f32⟩
  | 86 => ⟨S50000, .f32⟩
  | 87 => ⟨S800000x1, .i32⟩
  | 88 => ⟨S50000, .f32⟩
  | 89 => ⟨S_, .f32⟩
  | 90 => ⟨S50000, .f32⟩
  | 91 => ⟨S50000, .f32⟩
  | 92 => ⟨S50000x1, .f32⟩
  | 93 => ⟨S50000x128, .f32⟩
  | 94 => ⟨S50000x128, .f32⟩
  | 95 => ⟨S128x128, .f32⟩
  | 96 => ⟨S50000x128, .f32⟩
  | 97 => ⟨S1x128, .f32⟩
  | 98 => ⟨S50000x128, .f32⟩
  | 99 => ⟨S50000x128, .f32⟩
  | 100 => ⟨S128x128, .f32⟩
  | 101 => ⟨S50000x128, .f32⟩
  | 102 => ⟨S50000x128, .f32⟩
  | 103 => ⟨S_, .f32⟩
  | 104 => ⟨S50000x128, .f32⟩
  | 105 => ⟨S50000x128, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x128, .f32⟩
  | 115 => ⟨S800000x1, .f32⟩
  | 116 => ⟨S800000x128, .f32⟩
  | 117 => ⟨S800000x128, .f32⟩
  | 118 => ⟨S_, .f32⟩
  | 119 => ⟨S50000x128, .f32⟩
  | 120 => ⟨S800000x1, .i32⟩
  | 121 => ⟨S50000x128, .f32⟩
  | 122 => ⟨S_, .f32⟩
  | 123 => ⟨S800000, .f32⟩
  | 124 => ⟨S_, .f32⟩
  | 125 => ⟨S50000, .f32⟩
  | 126 => ⟨S800000x1, .i32⟩
  | 127 => ⟨S50000, .f32⟩
  | _ => ⟨S50000x128, .f32⟩

abbrev hbmTy0_1 (i : Nat) : BufTy := match i % 128 with
  | 0 => ⟨S_, .f32⟩
  | 1 => ⟨S50000, .f32⟩
  | 2 => ⟨S50000, .f32⟩
  | 3 => ⟨S50000x1, .f32⟩
  | 4 => ⟨S50000x128, .f32⟩
  | 5 => ⟨S50000x128, .f32⟩
  | 6 => ⟨S128x128, .f32⟩
  | 7 => ⟨S50000x128, .f32⟩
  | 8 => ⟨S1x128, .f32⟩
  | 9 => ⟨S50000x128, .f32⟩
  | 10 => ⟨S50000x128, .f32⟩
  | 11 => ⟨S128x128, .f32⟩
  | 12 => ⟨S50000x128, .f32⟩
  | 13 => ⟨S50000x128, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x128, .f32⟩
  | 23 => ⟨S800000x1, .f32⟩
  | 24 => ⟨S800000x128, .f32⟩
  | 25 => ⟨S800000x128, .f32⟩
  | 26 => ⟨S_, .f32⟩
  | 27 => ⟨S50000x128, .f32⟩
  | 28 => ⟨S800000x1, .i32⟩
  | 29 => ⟨S50000x128, .f32⟩
  | 30 => ⟨S_, .f32⟩
  | 31 => ⟨S800000, .f32⟩
  | 32 => ⟨S_, .f32⟩
  | 33 => ⟨S50000, .f32⟩
  | 34 => ⟨S800000x1, .i32⟩
  | 35 => ⟨S50000, .f32⟩
  | 36 => ⟨S_, .f32⟩
  | 37 => ⟨S50000, .f32⟩
  | 38 => ⟨S50000, .f32⟩
  | 39 => ⟨S50000x1, .f32⟩
  | 40 => ⟨S50000x128, .f32⟩
  | 41 => ⟨S50000x128, .f32⟩
  | 42 => ⟨S128x128, .f32⟩
  | 43 => ⟨S50000x128, .f32⟩
  | 44 => ⟨S1x128, .f32⟩
  | 45 => ⟨S50000x128, .f32⟩
  | 46 => ⟨S50000x128, .f32⟩
  | 47 => ⟨S128x128, .f32⟩
  | 48 => ⟨S50000x128, .f32⟩
  | 49 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c : Ref sig .tc := ⟨.hbm, 28, rfl⟩
abbrev main_v10 : Ref sig .tc := ⟨.hbm, 29, rfl⟩
abbrev main_v11 : Ref sig .tc := ⟨.hbm, 30, rfl⟩
abbrev main_c_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_call0_cst : Ref sig .tc := ⟨.hbm, 64, rfl⟩
abbrev main_call0_v0 : Ref sig .tc := ⟨.hbm, 65, rfl⟩
abbrev main_v40 : Ref sig .tc := ⟨.hbm, 66, rfl⟩
abbrev main_c_6 : Ref sig .tc := ⟨.hbm, 67, rfl⟩
abbrev main_v41 : Ref sig .tc := ⟨.hbm, 68, rfl⟩
abbrev main_v42 : Ref sig .tc := ⟨.hbm, 69, rfl⟩
abbrev main_c_7 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_9 : Ref sig .tc := ⟨.hbm, 83, rfl⟩
abbrev main_v54 : Ref sig .tc := ⟨.hbm, 84, rfl⟩
abbrev main_cst_10 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_11 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_call1_cst : Ref sig .tc := ⟨.hbm, 103, rfl⟩
abbrev main_call1_v0 : Ref sig .tc := ⟨.hbm, 104, rfl⟩
abbrev main_v71 : Ref sig .tc := ⟨.hbm, 105, rfl⟩
abbrev main_c_12 : Ref sig .tc := ⟨.hbm, 106, rfl⟩
abbrev main_v72 : Ref sig .tc := ⟨.hbm, 107, rfl⟩
abbrev main_v73 : Ref sig .tc := ⟨.hbm, 108, rfl⟩
abbrev main_c_13 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_14 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_15 : Ref sig .tc := ⟨.hbm, 122, rfl⟩
abbrev main_v85 : Ref sig .tc := ⟨.hbm, 123, rfl⟩
abbrev main_cst_16 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_17 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_c_18 : Ref sig .tc := ⟨.hbm, 142, rfl⟩
abbrev main_v102 : Ref sig .tc := ⟨.hbm, 143, rfl⟩
abbrev main_v103 : Ref sig .tc := ⟨.hbm, 144, rfl⟩
abbrev main_c_19 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_cst_20 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_cst_21 : Ref sig .tc := ⟨.hbm, 158, rfl⟩
abbrev main_v115 : Ref sig .tc := ⟨.hbm, 159, rfl⟩
abbrev main_cst_22 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_cst_23 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The kernel program's run with its two results named.

  The program is four kernel launches among stretches of host operations.  Its generated frame certificate runs the
  eight segments in order and tracks the contents of every buffer at every segment boundary (`W0` … `W8`); its final
  statement keeps only the sixteen argument arrays.  Here the same run is stated once more with the two result arrays
  kept as well, each at the last boundary's contents; the later modules read those contents back to the arguments.
-/
import proofs.«166268_j87548613362348_2_alg».proof.Proof.Gen.KernelIdeal.Frame

set_option maxRecDepth 16384

noncomputable section

namespace Cert.Sage.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the two result arrays end at the last
    boundary's contents and the sixteen argument arrays as launched. -/
theorem run_results : θ_run defs (onTc (τ := τ) (main (F := F))) ⟨m, fun _ => 0, ρ⟩ (fun r => ∀ c : Dev nD,
      r.2.mem ((c.tc : Thread nD τ).loc main_v77) = W8 m ρ c (Proc.devRef .tc main_v77)
      ∧ r.2.mem ((c.tc : Thread nD τ).loc main_v97) = W8 m ρ c (Proc.devRef .tc main_v97)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v77 (by decide)),
       h c _ (mem_uc main_v97 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c)⟩)

end Cert.Sage.Kernel

end
-- ==== Proof.Spec.lean ====
/-
  One weighted-mean graph-convolution step, as a function of whole arrays, index by index over the extended reals.

  For node features `x` (50000 nodes × 128 features), a per-node weighted sum of neighbour features `agg`, a
  per-node edge count `cnt` (kept as a 50000 × 1 column), two 128 × 128 matrices `wl`, `wr` (already transposed:
  row = input feature, column = output feature) and a bias row `b`, the step's value at node `r`, feature `j` is

      (∑ₖ (agg[r,k] / max(cnt[r], 1)) · wl[k,j]  +  b[j])  +  ∑ₖ x[r,k] · wr[k,j].

  Both programs compute exactly this expression, with the same association of the two outer sums; they differ in
  how the arrays are tiled and in which order the 128 products of each inner sum are added, neither of which matters
  on the extended reals.  The first layer clamps the value below at zero.
-/
import Idealize.ShloMosaic.PureOps.Ideal
import Idealize.ShloMosaic.Lib.ValueIdx

noncomputable section

namespace Cert.Sage

open Idealize.ShloMosaic Idealize.ShloMosaic.ValueIdx

/-- Node features: 50000 nodes × 128 features. -/
abbrev SN : Shape := ⟨2, ![50000, 128]⟩
/-- One number per node, kept as a column. -/
abbrev SN1 : Shape := ⟨2, ![50000, 1]⟩
/-- A weight matrix. -/
abbrev SW : Shape := ⟨2, ![128, 128]⟩
/-- A bias row. -/
abbrev SB : Shape := ⟨2, ![1, 128]⟩

/-- The float pattern of 1.0 and of 0.0, as they are read at the extended reals. -/
abbrev one : EReal := Ideal.ofBits .f32 0x3F800000#32
abbrev zero : EReal := Ideal.ofBits .f32 0x00000000#32

/-- The step's value at node `r`, output feature `j`. -/
def linAt (x agg : SN.Idx → EReal) (cnt : SN1.Idx → EReal) (wl : SW.Idx → EReal) (b : SB.Idx → EReal)
    (wr : SW.Idx → EReal) (r : Fin 50000) (j : Fin 128) : EReal :=
  ((∑ k : Fin 128, Ideal.div (agg (ix2 r k)) (max (cnt (ix2 r (0 : Fin 1))) one) * wl (ix2 k j)) + b (ix2 (0 : Fin 1) j))
    + ∑ k : Fin 128, x (ix2 r k) * wr (ix2 k j)

/-- The step as a whole array (second layer: no clamp). -/
def lin (x agg : SN.Idx → EReal) (cnt : SN1.Idx → EReal) (wl : SW.Idx → EReal) (b : SB.Idx → EReal)
    (wr : SW.Idx → EReal) : SN.Idx → EReal :=
  fun i => linAt x agg cnt wl b wr ⟨(i 0).val, (i 0).isLt⟩ ⟨(i 1).val, (i 1).isLt⟩

/-- The step followed by the clamp at zero (first layer). -/
def linRelu (x agg : SN.Idx → EReal) (cnt : SN1.Idx → EReal) (wl : SW.Idx → EReal) (b : SB.Idx → EReal)
    (wr : SW.Idx → EReal) : SN.Idx → EReal :=
  fun i => max (linAt x agg cnt wl b wr ⟨(i 0).val, (i 0).isLt⟩ ⟨(i 1).val, (i 1).isLt⟩) zero

/-- A per-node number stored as a vector, read as a column. -/
def colOf (c : (⟨1, ![50000]⟩ : Shape).Idx → EReal) : SN1.Idx → EReal :=
  fun i => c (ix1 ⟨(i 0).val, (i 0).isLt⟩)

/-- A bias vector read as a row. -/
def rowOf (b : (⟨1, ![128]⟩ : Shape).Idx → EReal) : SB.Idx → EReal :=
  fun i => b (ix1 ⟨(i 1).val, (i 1).isLt⟩)

/-- A weight matrix read transposed: entry (k, j) of the result is entry (j, k) of the matrix. -/
def tr (w : SW.Idx → EReal) : SW.Idx → EReal :=
  fun i => w (ix2 ⟨(i 1).val, (i 1).isLt⟩ ⟨(i 0).val, (i 0).isLt⟩)

/-- The second-layer step from the arrays as the programs receive them: the count as a vector, the weights as
    (output feature × input feature) matrices, the bias as a vector. -/
def step (x agg : SN.Idx → EReal) (cnt : (⟨1, ![50000]⟩ : Shape).Idx → EReal) (wl : SW.Idx → EReal)
    (b : (⟨1, ![128]⟩ : Shape).Idx → EReal) (wr : SW.Idx → EReal) : SN.Idx → EReal :=
  lin x agg (colOf cnt) (tr wl) (rowOf b) (tr wr)

/-- The first-layer step (clamped at zero) from the arrays as the programs receive them. -/
def stepRelu (x agg : SN.Idx → EReal) (cnt : (⟨1, ![50000]⟩ : Shape).Idx → EReal) (wl : SW.Idx → EReal)
    (b : (⟨1, ![128]⟩ : Shape).Idx → EReal) (wr : SW.Idx → EReal) : SN.Idx → EReal :=
  linRelu x agg (colOf cnt) (tr wl) (rowOf b) (tr wr)

end Cert.Sage

end
-- ==== Proof.KernelBlock.lean ====
/-
  What the kernel body computes on one block of 5000 nodes, read at one entry.

  The body divides the block of neighbour sums by `max(count, 1)` (the count broadcast along the feature axis),
  multiplies the quotient by one weight matrix, adds the bias row, adds the product of the block of node features with
  the other weight matrix, and (first layer only) clamps at zero.  Changes of float format are the identity on the
  extended reals, and a matrix product into a zero accumulator is the plain sum of 128 products; so at row `p`,
  column `q` the stored value is the step's expression (Spec) of the six loaded blocks.
-/
import proofs.«166268_j87548613362348_2_alg».proof.Proof.Gen.KernelIdeal.Skeleton
import proofs.«166268_j87548613362348_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Sage.Kernel

open Idealize.ShloMosaic Idealize.ShloMosaic.ValueIdx Cert.KernelIdeal Cert.KernelIdeal.Gen Cert.Sage

/-- The step's expression on one block: row `p` of the block, output feature `q`. -/
def blkAt (x agg : S5000x128.Idx → EReal) (cnt : S5000x1.Idx → EReal) (wl : S128x128.Idx → EReal) (b : S1x128.Idx → EReal)
    (wr : S128x128.Idx → EReal) (p : Fin 5000) (q : Fin 128) : EReal :=
  ((∑ k : Fin 128, Ideal.div (agg (ix2 p k)) (max (cnt (ix2 p (0 : Fin 1))) one) * wl (ix2 k q)) + b (ix2 (0 : Fin 1) q))
    + ∑ k : Fin 128, x (ix2 p k) * wr (ix2 k q)

/-! ## The block's matrix product at an entry -/

theorem lhs0 (i : S5000x128.Idx) (z : dot_S5000x128_S128x128_S5000x128_1_0_0_1_n_n.contr.Idx) : (dot_S5000x128_S128x128_S5000x128_1_0_0_1_n_n.lhsIdx i z 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhs1 (i : S5000x128.Idx) (z : dot_S5000x128_S128x128_S5000x128_1_0_0_1_n_n.contr.Idx) : (dot_S5000x128_S128x128_S5000x128_1_0_0_1_n_n.lhsIdx i z 1).val = (z ⟨0, by decide⟩).val :=
  dot_S5000x128_S128x128_S5000x128_1_0_0_1_n_n.lhsIdx_val_of_single rfl i z
theorem rhs0 (i : S5000x128.Idx) (z : dot_S5000x128_S128x128_S5000x128_1_0_0_1_n_n.contr.Idx) : (dot_S5000x128_S128x128_S5000x128_1_0_0_1_n_n.rhsIdx i z 0).val = (z ⟨0, by decide⟩).val :=
  dot_S5000x128_S128x128_S5000x128_1_0_0_1_n_n.rhsIdx_val_of_single rfl i z
theorem rhs1 (i : S5000x128.Idx) (z : dot_S5000x128_S128x128_S5000x128_1_0_0_1_n_n.contr.Idx) : (dot_S5000x128_S128x128_S5000x128_1_0_0_1_n_n.rhsIdx i z 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A 5000×128 by 128×128 product into the zero accumulator, at entry (p, q): the sum over the shared axis. -/
theorem mm_at {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q) = ∑ k : Fin 128, l (ix2 p k) * r (ix2 k q) := by
  show FloatOps.matmul dot_S5000x128_S128x128_S5000x128_1_0_0_1_n_n none l r (constant S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs0 _ _
    | ⟨1, _⟩ => exact (lhs1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs0 _ _).trans hk
    | ⟨1, _⟩ => exact rhs1 _ _)
  rw [el, er]

/-- A column of per-node numbers broadcast along the feature axis reads, at (p, q), the column at p. -/
theorem bcol_at {α : Type} (v : S5000x1.Idx → α) (h : S5000x1.Broadcasts S5000x128) (p : Fin 5000) (q : Fin 128) :
    broadcastTo S5000x128 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The bias row broadcast over the nodes reads, at (p, q), the row at q. -/
theorem brow_at {α : Type} (v : S1x128.Idx → α) (h : S1x128.Broadcasts S5000x128) (p : Fin 5000) (q : Fin 128) :
    broadcastTo S5000x128 v h (ix2 p q) = v (ix2 (0 : Fin 1) q) :=
  ValueIdx.broadcastTo_1b_ab_apply v h p q

/-! ## The stored values -/

/-- Launch 0: the stored block at (p, q) is the step's expression clamped at zero. -/
theorem pay0_at (v0 : Vec Ideal S5000x1 .f32) (v2 v8 : Vec Ideal S5000x128 .f32) (v11 v14 : Vec Ideal S128x128 .f32)
    (v18 : Vec Ideal S1x128 .f32) (p : Fin 5000) (q : Fin 128) :
    k0_pay1 (F := Ideal) v0 v2 v8 v11 v14 v18 (ix2 p q) = max (blkAt v8 v2 v0 v11 v18 v14 p q) zero := by
  unfold k0_pay1 blkAt
  simp only [shapeCast_self]
  simp only [maximumf, addf, divf, truncf, broadcast, mm_at, bcol_at, brow_at,
    Ideal.maximumf_def, Ideal.addf_def, Ideal.divf_def, Ideal.truncf_def, Ideal.ofBits_def, Scalar.ofBits]

/-- Launch 1: the stored block at (p, q) is the step's expression clamped at zero. -/
theorem pay1_at (v0 : Vec Ideal S5000x1 .f32) (v2 v8 : Vec Ideal S5000x128 .f32) (v11 v14 : Vec Ideal S128x128 .f32)
    (v18 : Vec Ideal S1x128 .f32) (p : Fin 5000) (q : Fin 128) :
    k1_pay1 (F := Ideal) v0 v2 v8 v11 v14 v18 (ix2 p q) = max (blkAt v8 v2 v0 v11 v18 v14 p q) zero := by
  unfold k1_pay1 blkAt
  simp only [shapeCast_self]
  simp only [maximumf, addf, divf, truncf, broadcast, mm_at, bcol_at, brow_at,
    Ideal.maximumf_def, Ideal.addf_def, Ideal.divf_def, Ideal.truncf_def, Ideal.ofBits_def, Scalar.ofBits]

/-- Launch 2: the stored block at (p, q) is the step's expression. -/
theorem pay2_at (v0 : Vec Ideal S5000x1 .f32) (v2 v8 : Vec Ideal S5000x128 .f32) (v12 v15 : Vec Ideal S128x128 .f32)
    (v19 : Vec Ideal S1x128 .f32) (p : Fin 5000) (q : Fin 128) :
    k2_pay1 (F := Ideal) v0 v2 v8 v12 v15 v19 (ix2 p q) = blkAt v8 v2 v0 v12 v19 v15 p q := by
  unfold k2_pay1 blkAt
  simp only [shapeCast_self]
  simp only [maximumf, addf, divf, truncf, broadcast, mm_at, bcol_at, brow_at,
    Ideal.maximumf_def, Ideal.addf_def, Ideal.divf_def, Ideal.truncf_def, Ideal.ofBits_def, Scalar.ofBits]

/-- Launch 3: the stored block at (p, q) is the step's expression. -/
theorem pay3_at (v0 : Vec Ideal S5000x1 .f32) (v2 v8 : Vec Ideal S5000x128 .f32) (v12 v15 : Vec Ideal S128x128 .f32)
    (v19 : Vec Ideal S1x128 .f32) (p : Fin 5000) (q : Fin 128) :
    k3_pay1 (F := Ideal) v0 v2 v8 v12 v15 v19 (ix2 p q) = blkAt v8 v2 v0 v12 v19 v15 p q := by
  unfold k3_pay1 blkAt
  simp only [shapeCast_self]
  simp only [maximumf, addf, divf, truncf, broadcast, mm_at, bcol_at, brow_at,
    Ideal.maximumf_def, Ideal.addf_def, Ideal.divf_def, Ideal.truncf_def, Ideal.ofBits_def, Scalar.ofBits]

/-! ## A block's expression is the whole arrays' expression at the block's place -/

/-- If the six blocks hold, at the entries the expression reads, what the six whole arrays hold at node `r` and
    feature `j`, then the block's expression at (p, q) is the step's value at (r, j). -/
theorem blkAt_eq_linAt (X AG : SN.Idx → EReal) (CN : SN1.Idx → EReal) (WL : SW.Idx → EReal) (B : SB.Idx → EReal)
    (WR : SW.Idx → EReal) (xb agb : S5000x128.Idx → EReal) (cb : S5000x1.Idx → EReal) (wlb : S128x128.Idx → EReal)
    (bb : S1x128.Idx → EReal) (wrb : S128x128.Idx → EReal) (p : Fin 5000) (q : Fin 128) (r : Fin 50000) (j : Fin 128)
    (hx : ∀ k : Fin 128, xb (ix2 p k) = X (ix2 r k)) (hag : ∀ k : Fin 128, agb (ix2 p k) = AG (ix2 r k))
    (hc : cb (ix2 p (0 : Fin 1)) = CN (ix2 r (0 : Fin 1))) (hwl : ∀ k : Fin 128, wlb (ix2 k q) = WL (ix2 k j))
    (hb : bb (ix2 (0 : Fin 1) q) = B (ix2 (0 : Fin 1) j)) (hwr : ∀ k : Fin 128, wrb (ix2 k q) = WR (ix2 k j)) :
    blkAt xb agb cb wlb bb wrb p q = linAt X AG CN WL B WR r j := by
  unfold blkAt linAt
  simp only [hx, hag, hc, hwl, hb, hwr]

end Cert.Sage.Kernel

end
-- ==== Proof.KernelArr0.lean ====
/-
  Launch 0 of the kernel (first layer), from blocks to the whole array.

  The grid has ten points; point `t` works on nodes 5000·t … 5000·t + 4999: the node features, the neighbour sums
  and the count column are read, and the result written, in blocks of 5000 rows that move with `t`, while the two
  weight matrices and the bias row are the same whole arrays at every point.  So what point `t` writes back is the
  block at `t` of the step's whole-array function (Spec) of the six arrays as the launch finds them, the ten blocks
  tile the result, and the result array ends as that function.
-/
import proofs.«166268_j87548613362348_2_alg».proof.Proof.Gen.KernelIdeal.Frame
import proofs.«166268_j87548613362348_2_alg».proof.Proof.KernelBlock
import Idealize.ShloMosaic.Lib.Pipeline.Value

set_option maxRecDepth 16384

noncomputable section

namespace Cert.Sage.Kernel

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage

variable (V : (c : Dev nD) → (b : Ref sig .tc) → Buf (Elt Ideal) ((c : Thread nD τ).loc b))

theorem hz0 : (![0, 0] : Fin 2 → Nat) = fun _ => 0 := funext fun a => by fin_cases a <;> rfl

/-- The index maps over the grid: the three row-blocked inputs move with the output along the node axis; the
    weights and the bias stay at block 0; the output's block along the node axis is the point itself. -/
theorem idx_facts0 : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 9 :=
  (by decide +kernel : ∀ t : Fin grid0.N, _)

/-- Every block of ten along the node axis is some point's. -/
theorem idx_onto0 : ∀ q0 : Fin 10, ∃ t : Fin cfg0.N, win0_6.index t = ![q0.val, 0] :=
  (by decide +kernel : ∀ q0 : Fin 10, ∃ t : Fin grid0.N, win0_6.index t = ![q0.val, 0])

/-- What point `t` writes back is block `t` of the step's function of the arrays as the launch finds them. -/
theorem flushed0_eq (c : Dev nD) (t : Fin cfg0.N) :
    (dat0 V c).flushed 6 t = ((cfg0.win 6).blk t).view.read (Elt Ideal)
      (linRelu (V c main_arg1) (V c main_v32) (V c main_v36) (V c main_v33) (V c main_v35) (V c main_v34)) := by
  show (cfg0.win 6).cut (grid0.coords t) ((dat0 V c).after 6 t) = _
  rw [after0_6]
  unfold out0_6
  rw [View.canon_unit_zero hz0]
  simp only [View.ld_unit_zero (S := S5000x128) hz0, View.ld_unit_zero (S := S5000x1) hz0,
    View.ld_unit_zero (S := S128x128) hz0, View.ld_unit_zero (S := S1x128) hz0]
  obtain ⟨e00, e01, e10, e11, e20, e21, e30, e31, e40, e41, e50, e51, e61, e6⟩ := idx_facts0 t
  funext j
  obtain ⟨p, q, rfl⟩ : ∃ (p : Fin 5000) (q : Fin 128), j = ix2 p q := ⟨j 0, j 1, eq_ix2 j⟩
  show k0_pay1 (F := Ideal) (iblk0 V c 2 t) (iblk0 V c 1 t) (iblk0 V c 0 t) (iblk0 V c 3 t) (iblk0 V c 5 t) (iblk0 V c 4 t) (ix2 p q)
    = linRelu (V c main_arg1) (V c main_v32) (V c main_v36) (V c main_v33) (V c main_v35) (V c main_v34) (((cfg0.win 6).blk t).view.emb (ix2 p q))
  refine (pay0_at _ _ _ _ _ _ p q).trans ?_
  unfold linRelu
  refine congrArg (fun z => max z zero) ?_
  refine blkAt_eq_linAt _ _ _ _ _ _ _ _ _ _ _ _ p q _ _ ?_ ?_ ?_ ?_ ?_ ?_
  · intro k
    show V c main_arg1 (((cfg0.win 0).blk t).view.emb (ix2 p k)) = V c main_arg1 _
    refine congrArg _ (funext fun a => Fin.ext ?_)
    match a with
    | ⟨0, _⟩ => show win0_0.index t (0 : Fin 2) * 5000 + 1 * p.val = win0_6.index t (0 : Fin 2) * 5000 + 1 * p.val; omega
    | ⟨1, _⟩ => show win0_0.index t (1 : Fin 2) * 128 + 1 * k.val = k.val; omega
  · intro k
    show V c main_v32 (((cfg0.win 1).blk t).view.emb (ix2 p k)) = V c main_v32 _
    refine congrArg _ (funext fun a => Fin.ext ?_)
    match a with
    | ⟨0, _⟩ => show win0_1.index t (0 : Fin 2) * 5000 + 1 * p.val = win0_6.index t (0 : Fin 2) * 5000 + 1 * p.val; omega
    | ⟨1, _⟩ => show win0_1.index t (1 : Fin 2) * 128 + 1 * k.val = k.val; omega
  · show V c main_v36 (((cfg0.win 2).blk t).view.emb (ix2 p (0 : Fin 1))) = V c main_v36 _
    refine congrArg _ (funext fun a => Fin.ext ?_)
    match a with
    | ⟨0, _⟩ => show win0_2.index t (0 : Fin 2) * 5000 + 1 * p.val = win0_6.index t (0 : Fin 2) * 5000 + 1 * p.val; omega
    | ⟨1, _⟩ => show win0_2.index t (1 : Fin 2) * 1 + 1 * 0 = 0; omega
  · intro k
    show V c main_v33 (((cfg0.win 3).blk t).view.emb (ix2 k q)) = V c main_v33 _
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * q.val = win0_6.index t (1 : Fin 2) * 128 + 1 * q.val; omega
  · show V c main_v35 (((cfg0.win 4).blk t).view.emb (ix2 (0 : Fin 1) q)) = V c main_v35 _
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * q.val = win0_6.index t (1 : Fin 2) * 128 + 1 * q.val; omega
  · intro k
    show V c main_v34 (((cfg0.win 5).blk t).view.emb (ix2 k q)) = V c main_v34 _
    refine congrArg _ (funext fun a => Fin.ext ?_)
    match a with
    | ⟨0, _⟩ => show win0_5.index t (0 : Fin 2) * 128 + 1 * k.val = k.val; omega
    | ⟨1, _⟩ => show win0_5.index t (1 : Fin 2) * 128 + 1 * q.val = win0_6.index t (1 : Fin 2) * 128 + 1 * q.val; omega

/-- An index of the result array is in point `t`'s block iff each coordinate is in the block's range. -/
theorem mem_blk0 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v37).slice (win0_6.rect t)).set ↔ _
  rw [View.set_slice_whole, Rect.mem_set_unit]
  exact Iff.rfl

/-- Every entry of the result array is in some point's block: node `r` is in block `r / 5000`. -/
theorem cover0 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := idx_onto0 ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk0]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- The result array after the launch: the step's function of the six arrays as the launch finds them. -/
theorem arr0 (c : Dev nD) :
    (dat0 V c).arrAt 6 cfg0.N = linRelu (V c main_arg1) (V c main_v32) (V c main_v36) (V c main_v33) (V c main_v35) (V c main_v34) :=
  (dat0 V c).arrAt_eq_of_cover 6 _ (fun t _ => flushed0_eq V c t) (cover0)

end Cert.Sage.Kernel

end
-- ==== Proof.KernelArr1.lean ====
/-
  Launch 1 of the kernel (first layer), from blocks to the whole array.

  The grid has ten points; point `t` works on nodes 5000·t … 5000·t + 4999: the node features, the neighbour sums
  and the count column are read, and the result written, in blocks of 5000 rows that move with `t`, while the two
  weight matrices and the bias row are the same whole arrays at every point.  So what point `t` writes back is the
  block at `t` of the step's whole-array function (Spec) of the six arrays as the launch finds them, the ten blocks
  tile the result, and the result array ends as that function.
-/
import proofs.«166268_j87548613362348_2_alg».proof.Proof.Gen.KernelIdeal.Frame
import proofs.«166268_j87548613362348_2_alg».proof.Proof.KernelBlock
import Idealize.ShloMosaic.Lib.Pipeline.Value

set_option maxRecDepth 16384

noncomputable section

namespace Cert.Sage.Kernel

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage

variable (V : (c : Dev nD) → (b : Ref sig .tc) → Buf (Elt Ideal) ((c : Thread nD τ).loc b))

theorem hz1 : (![0, 0] : Fin 2 → Nat) = fun _ => 0 := funext fun a => by fin_cases a <;> rfl

/-- The index maps over the grid: the three row-blocked inputs move with the output along the node axis; the
    weights and the bias stay at block 0; the output's block along the node axis is the point itself. -/
theorem idx_facts1 : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (1 : Fin 2) = 0 ∧ win1_6.index t (0 : Fin 2) ≤ 9 :=
  (by decide +kernel : ∀ t : Fin grid1.N, _)

/-- Every block of ten along the node axis is some point's. -/
theorem idx_onto1 : ∀ q0 : Fin 10, ∃ t : Fin cfg1.N, win1_6.index t = ![q0.val, 0] :=
  (by decide +kernel : ∀ q0 : Fin 10, ∃ t : Fin grid1.N, win1_6.index t = ![q0.val, 0])

/-- What point `t` writes back is block `t` of the step's function of the arrays as the launch finds them. -/
theorem flushed1_eq (c : Dev nD) (t : Fin cfg1.N) :
    (dat1 V c).flushed 6 t = ((cfg1.win 6).blk t).view.read (Elt Ideal)
      (linRelu (V c main_arg0) (V c main_v52) (V c main_v56) (V c main_v53) (V c main_v55) (V c main_v54)) := by
  show (cfg1.win 6).cut (grid1.coords t) ((dat1 V c).after 6 t) = _
  rw [after1_6]
  unfold out1_6
  rw [View.canon_unit_zero hz1]
  simp only [View.ld_unit_zero (S := S5000x128) hz1, View.ld_unit_zero (S := S5000x1) hz1,
    View.ld_unit_zero (S := S128x128) hz1, View.ld_unit_zero (S := S1x128) hz1]
  obtain ⟨e00, e01, e10, e11, e20, e21, e30, e31, e40, e41, e50, e51, e61, e6⟩ := idx_facts1 t
  funext j
  obtain ⟨p, q, rfl⟩ : ∃ (p : Fin 5000) (q : Fin 128), j = ix2 p q := ⟨j 0, j 1, eq_ix2 j⟩
  show k1_pay1 (F := Ideal) (iblk1 V c 2 t) (iblk1 V c 1 t) (iblk1 V c 0 t) (iblk1 V c 3 t) (iblk1 V c 5 t) (iblk1 V c 4 t) (ix2 p q)
    = linRelu (V c main_arg0) (V c main_v52) (V c main_v56) (V c main_v53) (V c main_v55) (V c main_v54) (((cfg1.win 6).blk t).view.emb (ix2 p q))
  refine (pay1_at _ _ _ _ _ _ p q).trans ?_
  unfold linRelu
  refine congrArg (fun z => max z zero) ?_
  refine blkAt_eq_linAt _ _ _ _ _ _ _ _ _ _ _ _ p q _ _ ?_ ?_ ?_ ?_ ?_ ?_
  · intro k
    show V c main_arg0 (((cfg1.win 0).blk t).view.emb (ix2 p k)) = V c main_arg0 _
    refine congrArg _ (funext fun a => Fin.ext ?_)
    match a with
    | ⟨0, _⟩ => show win1_0.index t (0 : Fin 2) * 5000 + 1 * p.val = win1_6.index t (0 : Fin 2) * 5000 + 1 * p.val; omega
    | ⟨1, _⟩ => show win1_0.index t (1 : Fin 2) * 128 + 1 * k.val = k.val; omega
  · intro k
    show V c main_v52 (((cfg1.win 1).blk t).view.emb (ix2 p k)) = V c main_v52 _
    refine congrArg _ (funext fun a => Fin.ext ?_)
    match a with
    | ⟨0, _⟩ => show win1_1.index t (0 : Fin 2) * 5000 + 1 * p.val = win1_6.index t (0 : Fin 2) * 5000 + 1 * p.val; omega
    | ⟨1, _⟩ => show win1_1.index t (1 : Fin 2) * 128 + 1 * k.val = k.val; omega
  · show V c main_v56 (((cfg1.win 2).blk t).view.emb (ix2 p (0 : Fin 1))) = V c main_v56 _
    refine congrArg _ (funext fun a => Fin.ext ?_)
    match a with
    | ⟨0, _⟩ => show win1_2.index t (0 : Fin 2) * 5000 + 1 * p.val = win1_6.index t (0 : Fin 2) * 5000 + 1 * p.val; omega
    | ⟨1, _⟩ => show win1_2.index t (1 : Fin 2) * 1 + 1 * 0 = 0; omega
  · intro k
    show V c main_v53 (((cfg1.win 3).blk t).view.emb (ix2 k q)) = V c main_v53 _
    refine congrArg _ (funext fun a => Fin.ext ?_)
    match a with
    | ⟨0, _⟩ => show win1_3.index t (0 : Fin 2) * 128 + 1 * k.val = k.val; omega
    | ⟨1, _⟩ => show win1_3.index t (1 : Fin 2) * 128 + 1 * q.val = win1_6.index t (1 : Fin 2) * 128 + 1 * q.val; omega
  · show V c main_v55 (((cfg1.win 4).blk t).view.emb (ix2 (0 : Fin 1) q)) = V c main_v55 _
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * q.val = win1_6.index t (1 : Fin 2) * 128 + 1 * q.val; omega
  · intro k
    show V c main_v54 (((cfg1.win 5).blk t).view.emb (ix2 k q)) = V c main_v54 _
    refine congrArg _ (funext fun a => Fin.ext ?_)
    match a with
    | ⟨0, _⟩ => show win1_5.index t (0 : Fin 2) * 128 + 1 * k.val = k.val; omega
    | ⟨1, _⟩ => show win1_5.index t (1 : Fin 2) * 128 + 1 * q.val = win1_6.index t (1 : Fin 2) * 128 + 1 * q.val; omega

/-- An index of the result array is in point `t`'s block iff each coordinate is in the block's range. -/
theorem mem_blk1 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v57).slice (win1_6.rect t)).set ↔ _
  rw [View.set_slice_whole, Rect.mem_set_unit]
  exact Iff.rfl

/-- Every entry of the result array is in some point's block: node `r` is in block `r / 5000`. -/
theorem cover1 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ := idx_onto1 ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- The result array after the launch: the step's function of the six arrays as the launch finds them. -/
theorem arr1 (c : Dev nD) :
    (dat1 V c).arrAt 6 cfg1.N = linRelu (V c main_arg0) (V c main_v52) (V c main_v56) (V c main_v53) (V c main_v55) (V c main_v54) :=
  (dat1 V c).arrAt_eq_of_cover 6 _ (fun t _ => flushed1_eq V c t) (cover1)

end Cert.Sage.Kernel

end
-- ==== Proof.KernelArr2.lean ====
/-
  Launch 2 of the kernel (second layer), from blocks to the whole array.

  The grid has ten points; point `t` works on nodes 5000·t … 5000·t + 4999: the node features, the neighbour sums
  and the count column are read, and the result written, in blocks of 5000 rows that move with `t`, while the two
  weight matrices and the bias row are the same whole arrays at every point.  So what point `t` writes back is the
  block at `t` of the step's whole-array function (Spec) of the six arrays as the launch finds them, the ten blocks
  tile the result, and the result array ends as that function.
-/
import proofs.«166268_j87548613362348_2_alg».proof.Proof.Gen.KernelIdeal.Frame
import proofs.«166268_j87548613362348_2_alg».proof.Proof.KernelBlock
import Idealize.ShloMosaic.Lib.Pipeline.Value

set_option maxRecDepth 16384

noncomputable section

namespace Cert.Sage.Kernel

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage

variable (V : (c : Dev nD) → (b : Ref sig .tc) → Buf (Elt Ideal) ((c : Thread nD τ).loc b))

theorem hz2 : (![0, 0] : Fin 2 → Nat) = fun _ => 0 := funext fun a => by fin_cases a <;> rfl

/-- The index maps over the grid: the three row-blocked inputs move with the output along the node axis; the
    weights and the bias stay at block 0; the output's block along the node axis is the point itself. -/
theorem idx_facts2 : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = win2_6.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (1 : Fin 2) = 0 ∧ win2_6.index t (0 : Fin 2) ≤ 9 :=
  (by decide +kernel : ∀ t : Fin grid2.N, _)

/-- Every block of ten along the node axis is some point's. -/
theorem idx_onto2 : ∀ q0 : Fin 10, ∃ t : Fin cfg2.N, win2_6.index t = ![q0.val, 0] :=
  (by decide +kernel : ∀ q0 : Fin 10, ∃ t : Fin grid2.N, win2_6.index t = ![q0.val, 0])

/-- What point `t` writes back is block `t` of the step's function of the arrays as the launch finds them. -/
theorem flushed2_eq (c : Dev nD) (t : Fin cfg2.N) :
    (dat2 V c).flushed 6 t = ((cfg2.win 6).blk t).view.read (Elt Ideal)
      (lin (V c main_v57) (V c main_v72) (V c main_v76) (V c main_v73) (V c main_v75) (V c main_v74)) := by
  show (cfg2.win 6).cut (grid2.coords t) ((dat2 V c).after 6 t) = _
  rw [after2_6]
  unfold out2_6
  rw [View.canon_unit_zero hz2]
  simp only [View.ld_unit_zero (S := S5000x128) hz2, View.ld_unit_zero (S := S5000x1) hz2,
    View.ld_unit_zero (S := S128x128) hz2, View.ld_unit_zero (S := S1x128) hz2]
  obtain ⟨e00, e01, e10, e11, e20, e21, e30, e31, e40, e41, e50, e51, e61, e6⟩ := idx_facts2 t
  funext j
  obtain ⟨p, q, rfl⟩ : ∃ (p : Fin 5000) (q : Fin 128), j = ix2 p q := ⟨j 0, j 1, eq_ix2 j⟩
  show k2_pay1 (F := Ideal) (iblk2 V c 2 t) (iblk2 V c 1 t) (iblk2 V c 0 t) (iblk2 V c 3 t) (iblk2 V c 5 t) (iblk2 V c 4 t) (ix2 p q)
    = lin (V c main_v57) (V c main_v72) (V c main_v76) (V c main_v73) (V c main_v75) (V c main_v74) (((cfg2.win 6).blk t).view.emb (ix2 p q))
  refine (pay2_at _ _ _ _ _ _ p q).trans ?_
  unfold lin
  show _ = linAt _ _ _ _ _ _ _ _
  refine blkAt_eq_linAt _ _ _ _ _ _ _ _ _ _ _ _ p q _ _ ?_ ?_ ?_ ?_ ?_ ?_
  · intro k
    show V c main_v57 (((cfg2.win 0).blk t).view.emb (ix2 p k)) = V c main_v57 _
    refine congrArg _ (funext fun a => Fin.ext ?_)
    match a with
    | ⟨0, _⟩ => show win2_0.index t (0 : Fin 2) * 5000 + 1 * p.val = win2_6.index t (0 : Fin 2) * 5000 + 1 * p.val; omega
    | ⟨1, _⟩ => show win2_0.index t (1 : Fin 2) * 128 + 1 * k.val = k.val; omega
  · intro k
    show V c main_v72 (((cfg2.win 1).blk t).view.emb (ix2 p k)) = V c main_v72 _
    refine congrArg _ (funext fun a => Fin.ext ?_)
    match a with
    | ⟨0, _⟩ => show win2_1.index t (0 : Fin 2) * 5000 + 1 * p.val = win2_6.index t (0 : Fin 2) * 5000 + 1 * p.val; omega
    | ⟨1, _⟩ => show win2_1.index t (1 : Fin 2) * 128 + 1 * k.val = k.val; omega
  · show V c main_v76 (((cfg2.win 2).blk t).view.emb (ix2 p (0 : Fin 1))) = V c main_v76 _
    refine congrArg _ (funext fun a => Fin.ext ?_)
    match a with
    | ⟨0, _⟩ => show win2_2.index t (0 : Fin 2) * 5000 + 1 * p.val = win2_6.index t (0 : Fin 2) * 5000 + 1 * p.val; omega
    | ⟨1, _⟩ => show win2_2.index t (1 : Fin 2) * 1 + 1 * 0 = 0; omega
  · intro k
    show V c main_v73 (((cfg2.win 3).blk t).view.emb (ix2 k q)) = V c main_v73 _
    refine congrArg _ (funext fun a => Fin.ext ?_)
    match a with
    | ⟨0, _⟩ => show win2_3.index t (0 : Fin 2) * 128 + 1 * k.val = k.val; omega
    | ⟨1, _⟩ => show win2_3.index t (1 : Fin 2) * 128 + 1 * q.val = win2_6.index t (1 : Fin 2) * 128 + 1 * q.val; omega
  · show V c main_v75 (((cfg2.win 4).blk t).view.emb (ix2 (0 : Fin 1) q)) = V c main_v75 _
    refine congrArg _ (funext fun a => Fin.ext ?_)
    match a with
    | ⟨0, _⟩ => show win2_4.index t (0 : Fin 2) * 1 + 1 * 0 = 0; omega
    | ⟨1, _⟩ => show win2_4.index t (1 : Fin 2) * 128 + 1 * q.val = win2_6.index t (1 : Fin 2) * 128 + 1 * q.val; omega
  · intro k
    show V c main_v74 (((cfg2.win 5).blk t).view.emb (ix2 k q)) = V c main_v74 _
    refine congrArg _ (funext fun a => Fin.ext ?_)
    match a with
    | ⟨0, _⟩ => show win2_5.index t (0 : Fin 2) * 128 + 1 * k.val = k.val; omega
    | ⟨1, _⟩ => show win2_5.index t (1 : Fin 2) * 128 + 1 * q.val = win2_6.index t (1 : Fin 2) * 128 + 1 * q.val; omega

/-- An index of the result array is in point `t`'s block iff each coordinate is in the block's range. -/
theorem mem_blk2 (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v77).slice (win2_6.rect t)).set ↔ _
  rw [View.set_slice_whole, Rect.mem_set_unit]
  exact Iff.rfl

/-- Every entry of the result array is in some point's block: node `r` is in block `r / 5000`. -/
theorem cover2 (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  obtain ⟨t, ht⟩ := idx_onto2 ⟨(i 0).val / 5000, by omega⟩
  have q0 : win2_6.index t (0 : Fin 2) = (i 0).val / 5000 := congrFun ht 0
  have q1 : win2_6.index t (1 : Fin 2) = 0 := congrFun ht 1
  refine ⟨t, flush2_6 t, ?_⟩
  rw [mem_blk2]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- The result array after the launch: the step's function of the six arrays as the launch finds them. -/
theorem arr2 (c : Dev nD) :
    (dat2 V c).arrAt 6 cfg2.N = lin (V c main_v57) (V c main_v72) (V c main_v76) (V c main_v73) (V c main_v75) (V c main_v74) :=
  (dat2 V c).arrAt_eq_of_cover 6 _ (fun t _ => flushed2_eq V c t) (cover2)

end Cert.Sage.Kernel

end
-- ==== Proof.KernelArr3.lean ====
/-
  Launch 3 of the kernel (second layer), from blocks to the whole array.

  The grid has ten points; point `t` works on nodes 5000·t … 5000·t + 4999: the node features, the neighbour sums
  and the count column are read, and the result written, in blocks of 5000 rows that move with `t`, while the two
  weight matrices and the bias row are the same whole arrays at every point.  So what point `t` writes back is the
  block at `t` of the step's whole-array function (Spec) of the six arrays as the launch finds them, the ten blocks
  tile the result, and the result array ends as that function.
-/
import proofs.«166268_j87548613362348_2_alg».proof.Proof.Gen.KernelIdeal.Frame
import proofs.«166268_j87548613362348_2_alg».proof.Proof.KernelBlock
import Idealize.ShloMosaic.Lib.Pipeline.Value

set_option maxRecDepth 16384

noncomputable section

namespace Cert.Sage.Kernel

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage

variable (V : (c : Dev nD) → (b : Ref sig .tc) → Buf (Elt Ideal) ((c : Thread nD τ).loc b))

theorem hz3 : (![0, 0] : Fin 2 → Nat) = fun _ => 0 := funext fun a => by fin_cases a <;> rfl

/-- The index maps over the grid: the three row-blocked inputs move with the output along the node axis; the
    weights and the bias stay at block 0; the output's block along the node axis is the point itself. -/
theorem idx_facts3 : ∀ t : Fin cfg3.N,
    win3_0.index t (0 : Fin 2) = win3_6.index t (0 : Fin 2) ∧ win3_0.index t (1 : Fin 2) = 0
    ∧ win3_1.index t (0 : Fin 2) = win3_6.index t (0 : Fin 2) ∧ win3_1.index t (1 : Fin 2) = 0
    ∧ win3_2.index t (0 : Fin 2) = win3_6.index t (0 : Fin 2) ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (1 : Fin 2) = 0 ∧ win3_6.index t (0 : Fin 2) ≤ 9 :=
  (by decide +kernel : ∀ t : Fin grid3.N, _)

/-- Every block of ten along the node axis is some point's. -/
theorem idx_onto3 : ∀ q0 : Fin 10, ∃ t : Fin cfg3.N, win3_6.index t = ![q0.val, 0] :=
  (by decide +kernel : ∀ q0 : Fin 10, ∃ t : Fin grid3.N, win3_6.index t = ![q0.val, 0])

/-- What point `t` writes back is block `t` of the step's function of the arrays as the launch finds them. -/
theorem flushed3_eq (c : Dev nD) (t : Fin cfg3.N) :
    (dat3 V c).flushed 6 t = ((cfg3.win 6).blk t).view.read (Elt Ideal)
      (lin (V c main_v37) (V c main_v92) (V c main_v96) (V c main_v93) (V c main_v95) (V c main_v94)) := by
  show (cfg3.win 6).cut (grid3.coords t) ((dat3 V c).after 6 t) = _
  rw [after3_6]
  unfold out3_6
  rw [View.canon_unit_zero hz3]
  simp only [View.ld_unit_zero (S := S5000x128) hz3, View.ld_unit_zero (S := S5000x1) hz3,
    View.ld_unit_zero (S := S128x128) hz3, View.ld_unit_zero (S := S1x128) hz3]
  obtain ⟨e00, e01, e10, e11, e20, e21, e30, e31, e40, e41, e50, e51, e61, e6⟩ := idx_facts3 t
  funext j
  obtain ⟨p, q, rfl⟩ : ∃ (p : Fin 5000) (q : Fin 128), j = ix2 p q := ⟨j 0, j 1, eq_ix2 j⟩
  show k3_pay1 (F := Ideal) (iblk3 V c 2 t) (iblk3 V c 1 t) (iblk3 V c 0 t) (iblk3 V c 3 t) (iblk3 V c 5 t) (iblk3 V c 4 t) (ix2 p q)
    = lin (V c main_v37) (V c main_v92) (V c main_v96) (V c main_v93) (V c main_v95) (V c main_v94) (((cfg3.win 6).blk t).view.emb (ix2 p q))
  refine (pay3_at _ _ _ _ _ _ p q).trans ?_
  unfold lin
  show _ = linAt _ _ _ _ _ _ _ _
  refine blkAt_eq_linAt _ _ _ _ _ _ _ _ _ _ _ _ p q _ _ ?_ ?_ ?_ ?_ ?_ ?_
  · intro k
    show V c main_v37 (((cfg3.win 0).blk t).view.emb (ix2 p k)) = V c main_v37 _
    refine congrArg _ (funext fun a => Fin.ext ?_)
    match a with
    | ⟨0, _⟩ => show win3_0.index t (0 : Fin 2) * 5000 + 1 * p.val = win3_6.index t (0 : Fin 2) * 5000 + 1 * p.val; omega
    | ⟨1, _⟩ => show win3_0.index t (1 : Fin 2) * 128 + 1 * k.val = k.val; omega
  · intro k
    show V c main_v92 (((cfg3.win 1).blk t).view.emb (ix2 p k)) = V c main_v92 _
    refine congrArg _ (funext fun a => Fin.ext ?_)
    match a with
    | ⟨0, _⟩ => show win3_1.index t (0 : Fin 2) * 5000 + 1 * p.val = win3_6.index t (0 : Fin 2) * 5000 + 1 * p.val; omega
    | ⟨1, _⟩ => show win3_1.index t (1 : Fin 2) * 128 + 1 * k.val = k.val; omega
  · show V c main_v96 (((cfg3.win 2).blk t).view.emb (ix2 p (0 : Fin 1))) = V c main_v96 _
    refine congrArg _ (funext fun a => Fin.ext ?_)
    match a with
    | ⟨0, _⟩ => show win3_2.index t (0 : Fin 2) * 5000 + 1 * p.val = win3_6.index t (0 : Fin 2) * 5000 + 1 * p.val; omega
    | ⟨1, _⟩ => show win3_2.index t (1 : Fin 2) * 1 + 1 * 0 = 0; omega
  · intro k
    show V c main_v93 (((cfg3.win 3).blk t).view.emb (ix2 k q)) = V c main_v93 _
    refine congrArg _ (funext fun a => Fin.ext ?_)
    match a with
    | ⟨0, _⟩ => show win3_3.index t (0 : Fin 2) * 128 + 1 * k.val = k.val; omega
    | ⟨1, _⟩ => show win3_3.index t (1 : Fin 2) * 128 + 1 * q.val = win3_6.index t (1 : Fin 2) * 128 + 1 * q.val; omega
  · show V c main_v95 (((cfg3.win 4).blk t).view.emb (ix2 (0 : Fin 1) q)) = V c main_v95 _
    refine congrArg _ (funext fun a => Fin.ext ?_)
    match a with
    | ⟨0, _⟩ => show win3_4.index t (0 : Fin 2) * 1 + 1 * 0 = 0; omega
    | ⟨1, _⟩ => show win3_4.index t (1 : Fin 2) * 128 + 1 * q.val = win3_6.index t (1 : Fin 2) * 128 + 1 * q.val; omega
  · intro k
    show V c main_v94 (((cfg3.win 5).blk t).view.emb (ix2 k q)) = V c main_v94 _
    refine congrArg _ (funext fun a => Fin.ext ?_)
    match a with
    | ⟨0, _⟩ => show win3_5.index t (0 : Fin 2) * 128 + 1 * k.val = k.val; omega
    | ⟨1, _⟩ => show win3_5.index t (1 : Fin 2) * 128 + 1 * q.val = win3_6.index t (1 : Fin 2) * 128 + 1 * q.val; omega

/-- An index of the result array is in point `t`'s block iff each coordinate is in the block's range. -/
theorem mem_blk3 (t : Fin cfg3.N) (i : S50000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v97).slice (win3_6.rect t)).set ↔ _
  rw [View.set_slice_whole, Rect.mem_set_unit]
  exact Iff.rfl

/-- Every entry of the result array is in some point's block: node `r` is in block `r / 5000`. -/
theorem cover3 (i : S50000x128.Idx) :
    ∃ t : Fin cfg3.N, (cfg3.win 6).flush t = true ∧ i ∈ ((cfg3.win 6).blk t).view.set := by
  have hi0 : (i 0).val < 50000 := (i 0).isLt
  have hi1 : (i 1).val < 128 := (i 1).isLt
  obtain ⟨t, ht⟩ := idx_onto3 ⟨(i 0).val / 5000, by omega⟩
  have q0 : win3_6.index t (0 : Fin 2) = (i 0).val / 5000 := congrFun ht 0
  have q1 : win3_6.index t (1 : Fin 2) = 0 := congrFun ht 1
  refine ⟨t, flush3_6 t, ?_⟩
  rw [mem_blk3]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 128 ≤ (i 1).val ∧ (i 1).val < win3_6.index t (1 : Fin 2) * 128 + 128; omega

/-- The result array after the launch: the step's function of the six arrays as the launch finds them. -/
theorem arr3 (c : Dev nD) :
    (dat3 V c).arrAt 6 cfg3.N = lin (V c main_v37) (V c main_v92) (V c main_v96) (V c main_v93) (V c main_v95) (V c main_v94) :=
  (dat3 V c).arrAt_eq_of_cover 6 _ (fun t _ => flushed3_eq V c t) (cover3)

end Cert.Sage.Kernel

end
-- ==== Proof.HostPart.lean ====
/-
  The irregular part of a graph-convolution step, which both programs leave to the same host operations and which is
  therefore carried here as opaque functions, never opened: the edge weights `1 / (1 + exp(-e))`, the two rows of the
  edge list, the wrap of a negative index, the weighted gather-and-scatter sum of neighbour rows, and the edge count.
-/
import proofs.«166268_j87548613362348_2_alg».proof.ReferenceIdeal
import proofs.«166268_j87548613362348_2_alg».proof.Proof.Gen.ReferenceIdeal
import proofs.«166268_j87548613362348_2_alg».proof.Proof.Spec

noncomputable section

namespace Cert.Sage

open Idealize.ShloMosaic Cert.ReferenceIdeal Cert.ReferenceIdeal.Facts₀

/-- The edge weights: the logistic function of the raw weights, as the host computes it. -/
def edgeW (e : (⟨S800000, .f32⟩ : BufTy).Contents (Elt Ideal)) : (⟨S800000, .f32⟩ : BufTy).Contents (Elt Ideal) :=
  Host.divf (F := Ideal) (broadcastInDim S800000 ![] bcast_S_S800000 (constant S_ .f32 0x3F800000#32))
    (addf (broadcastInDim S800000 ![] bcast_S_S800000 (constant S_ .f32 0x3F800000#32)) (Host.exp (Host.negf e)))

/-- Row 0 of the edge list: each edge's source node. -/
def srcOf (ei : (⟨S2x800000, .i32⟩ : BufTy).Contents (Elt Ideal)) : (⟨S800000, .i32⟩ : BufTy).Contents (Elt Ideal) :=
  shapeCast _ (extractStridedSlice S1x800000 ![0, 0] ei slices_S2x800000_S1x800000_0_0) shapeCasts_S1x800000_S800000

/-- Row 1 of the edge list: each edge's destination node. -/
def dstOf (ei : (⟨S2x800000, .i32⟩ : BufTy).Contents (Elt Ideal)) : (⟨S800000, .i32⟩ : BufTy).Contents (Elt Ideal) :=
  shapeCast _ (extractStridedSlice S1x800000 ![1, 0] ei slices_S2x800000_S1x800000_1_0) shapeCasts_S1x800000_S800000

/-- A negative index counts from the end: 50000 is added to it. -/
def wrap (r : (⟨S800000, .i32⟩ : BufTy).Contents (Elt Ideal)) : (⟨S800000, .i32⟩ : BufTy).Contents (Elt Ideal) :=
  select (cmpi .slt r (broadcastInDim S800000 ![] bcast_S_S800000 (constantI S_ 32 0#32)))
    (addi r (broadcastInDim S800000 ![] bcast_S_S800000 (constantI S_ 32 50000#32))) r

/-- For every node, the sum over the edges scattered to it (`s`) of the weight times the feature row gathered at
    the edge's other end (`g`). -/
def aggOf (x : (⟨S50000x128, .f32⟩ : BufTy).Contents (Elt Ideal)) (g s : (⟨S800000, .i32⟩ : BufTy).Contents (Elt Ideal))
    (w : (⟨S800000, .f32⟩ : BufTy).Contents (Elt Ideal)) : (⟨S50000x128, .f32⟩ : BufTy).Contents (Elt Ideal) :=
  Host.scatterAdd (F := Ideal) scatter_S50000x128_S800000x1_S800000x128_1_0_0_1
    (broadcastInDim S50000x128 ![] bcast_S_S50000x128 (constant S_ .f32 0x00000000#32))
    (broadcastInDim S800000x1 ![0] bcast_S800000_S800000x1_0 s)
    (mulf (Host.gather gather_S50000x128_S800000x1_S800000x128_1_0_n_n_0_1_1128 x
        (broadcastInDim S800000x1 ![0] bcast_S800000_S800000x1_0 (wrap g)))
      (broadcastInDim S800000x128 ![0, 1] bcast_S800000x1_S800000x128_0_1
        (broadcastInDim S800000x1 ![0] bcast_S800000_S800000x1_0 w)))

/-- For every node, the number of edges scattered to it. -/
def cntOf (s : (⟨S800000, .i32⟩ : BufTy).Contents (Elt Ideal)) : (⟨S50000, .f32⟩ : BufTy).Contents (Elt Ideal) :=
  Host.scatterAdd (F := Ideal) scatter_S50000_S800000x1_S800000_n_0_0_1
    (broadcastInDim S50000 ![] bcast_S_S50000 (constant S_ .f32 0x00000000#32))
    (broadcastInDim S800000x1 ![0] bcast_S800000_S800000x1_0 s)
    (broadcastInDim S800000 ![] bcast_S_S800000 (constant S_ .f32 0x3F800000#32))

end Cert.Sage

end
-- ==== Proof.KernelLayout.lean ====
/-
  The three re-layouts the kernel program applies on the host before each launch, read at an index: the count
  vector reshaped to a column, the bias vector reshaped to a row, a weight matrix transposed.  Each is the
  corresponding reading of the same numbers in Spec (`colOf`, `rowOf`, `tr`).
-/
import proofs.«166268_j87548613362348_2_alg».proof.KernelIdeal
import proofs.«166268_j87548613362348_2_alg».proof.Proof.Gen.KernelIdeal
import proofs.«166268_j87548613362348_2_alg».proof.Proof.Spec
import Idealize.ShloMosaic.Lib.ValueIdx
import Idealize.ShloMosaic.Lib.ValueLayout
import Idealize.ShloMosaic.Lib.Pipeline.Value

noncomputable section

namespace Cert.Sage.Kernel

open Idealize.ShloMosaic Idealize.ShloMosaic.ValueIdx Cert.KernelIdeal Cert.Sage

/-- A vector of 50000 numbers reshaped to a 50000 × 1 column holds, at (r, 0), the vector's entry r. -/
theorem col_eq (cnt : S50000.Idx → EReal) (h : S50000.ShapeCasts S50000x1) : shapeCast S50000x1 cnt h = colOf cnt := by
  funext i
  obtain ⟨r, u, rfl⟩ : ∃ (r : Fin 50000) (u : Fin 1), i = ix2 r u := ⟨i 0, i 1, eq_ix2 i⟩
  show shapeCast S50000x1 cnt h (ix2 r u) = cnt (ix1 ⟨r.val, r.isLt⟩)
  exact shapeCast_apply cnt h _ _ (by
    have hu : u.val = 0 := by omega
    rw [Shape.rowMajor_val_one, Shape.rowMajor_val_two]
    show r.val = r.val * 1 + u.val
    omega)

/-- A vector of 128 numbers reshaped to a 1 × 128 row holds, at (0, j), the vector's entry j. -/
theorem row_eq (b : S128.Idx → EReal) (h : S128.ShapeCasts S1x128) : shapeCast S1x128 b h = rowOf b := by
  funext i
  obtain ⟨u, j, rfl⟩ : ∃ (u : Fin 1) (j : Fin 128), i = ix2 u j := ⟨i 0, i 1, eq_ix2 i⟩
  show shapeCast S1x128 b h (ix2 u j) = b (ix1 ⟨j.val, j.isLt⟩)
  exact shapeCast_a_1a_apply b h u j

/-- A 128 × 128 matrix transposed holds, at (k, j), the matrix's entry (j, k). -/
theorem tr_eq (w : S128x128.Idx → EReal) (h : S128x128.Transposes [1, 0] S128x128) :
    transpose S128x128 [1, 0] w h = tr w := by
  funext i
  exact transpose_apply [1, 0] w h i (ix2 ⟨(i 1).val, (i 1).isLt⟩ ⟨(i 0).val, (i 0).isLt⟩) (fun b => match b with
    | ⟨0, _⟩ => rfl
    | ⟨1, _⟩ => rfl)

end Cert.Sage.Kernel

end
-- ==== Proof.KernelChain.lean ====
/-
  The kernel program's two results read back to the arguments.

  Between the launches the program runs stretches of host operations; the contents of every buffer at the eight
  segment boundaries are a fold through the program (`W0` … `W8` of the generated frame).  Here each buffer a later
  segment reads is followed through that fold: a stretch of host operations computes it from earlier buffers (the
  irregular gather / scatter part stays the opaque functions of HostPart; a change of float format around the
  gather is the identity on the extended reals), a launch leaves every buffer but its own result alone, and a launch's
  result is the step's whole-array function (Spec) of its six operands.  At the end the two result buffers hold the
  second layer's two values as functions of the sixteen argument arrays.
-/
import proofs.«166268_j87548613362348_2_alg».proof.Proof.Gen.KernelIdeal.Frame
import proofs.«166268_j87548613362348_2_alg».proof.Proof.KernelArr0
import proofs.«166268_j87548613362348_2_alg».proof.Proof.KernelArr1
import proofs.«166268_j87548613362348_2_alg».proof.Proof.KernelArr2
import proofs.«166268_j87548613362348_2_alg».proof.Proof.KernelArr3
import proofs.«166268_j87548613362348_2_alg».proof.Proof.HostPart
import proofs.«166268_j87548613362348_2_alg».proof.Proof.KernelLayout
import Idealize.ShloMosaic.Lib.StableHlo.Run

set_option maxRecDepth 16384

noncomputable section

namespace Cert.Sage.Kernel

open Idealize.ShloMosaic Idealize.ShloMosaic.TcCoe Idealize.SL.Sem Idealize.ShloMosaic.StableHlo
open Cert.KernelIdeal Cert.KernelIdeal.Gen Cert.KernelIdeal.Facts₀ Cert.Sage

/-! ## Each stretch of host operations, from any contents `W` it starts from -/

section Stretches

variable (W : Valuation τ sig (Elt Ideal))

theorem h0_v5 : StableHlo.after hostOps0 W (Proc.devRef .tc main_v5) = edgeW (W (Proc.devRef .tc main_arg3)) := by
  dsimp only [hostOps0]; after_results_simp <;> rfl
theorem h0_v7 : StableHlo.after hostOps0 W (Proc.devRef .tc main_v7) = srcOf (W (Proc.devRef .tc main_arg2)) := by
  dsimp only [hostOps0]; after_results_simp <;> rfl
theorem h0_v9 : StableHlo.after hostOps0 W (Proc.devRef .tc main_v9) = dstOf (W (Proc.devRef .tc main_arg2)) := by
  dsimp only [hostOps0]; after_results_simp <;> rfl
theorem h0_v13 : StableHlo.after hostOps0 W (Proc.devRef .tc main_v13) = cntOf (dstOf (W (Proc.devRef .tc main_arg2))) := by
  dsimp only [hostOps0]; after_results_simp <;> rfl
theorem h0_v17 : StableHlo.after hostOps0 W (Proc.devRef .tc main_v17) = cntOf (srcOf (W (Proc.devRef .tc main_arg2))) := by
  dsimp only [hostOps0]; after_results_simp <;> rfl
theorem h0_v32 : StableHlo.after hostOps0 W (Proc.devRef .tc main_v32) = aggOf (W (Proc.devRef .tc main_arg1)) (srcOf (W (Proc.devRef .tc main_arg2))) (dstOf (W (Proc.devRef .tc main_arg2))) (edgeW (W (Proc.devRef .tc main_arg3))) := by
  dsimp only [hostOps0]; after_results_simp <;> rfl
theorem h0_v36 : StableHlo.after hostOps0 W (Proc.devRef .tc main_v36) = (shapeCast S50000x1 (cntOf (dstOf (W (Proc.devRef .tc main_arg2)))) Facts₀.shapeCasts_S50000_S50000x1) := by
  dsimp only [hostOps0]; after_results_simp <;> rfl
theorem h0_v33 : StableHlo.after hostOps0 W (Proc.devRef .tc main_v33) = (transpose S128x128 [1, 0] (W (Proc.devRef .tc main_arg4)) Facts₀.transposes_S128x128_S128x128_1_0) := by
  dsimp only [hostOps0]; after_results_simp <;> rfl
theorem h0_v35 : StableHlo.after hostOps0 W (Proc.devRef .tc main_v35) = (shapeCast S1x128 (W (Proc.devRef .tc main_arg5)) Facts₀.shapeCasts_S128_S1x128) := by
  dsimp only [hostOps0]; after_results_simp <;> rfl
theorem h0_v34 : StableHlo.after hostOps0 W (Proc.devRef .tc main_v34) = (transpose S128x128 [1, 0] (W (Proc.devRef .tc main_arg6)) Facts₀.transposes_S128x128_S128x128_1_0) := by
  dsimp only [hostOps0]; after_results_simp <;> rfl
theorem h1_v52 : StableHlo.after hostOps1 W (Proc.devRef .tc main_v52) = aggOf (W (Proc.devRef .tc main_arg0)) (W (Proc.devRef .tc main_v9)) (W (Proc.devRef .tc main_v7)) (W (Proc.devRef .tc main_v5)) := by
  dsimp only [hostOps1]; after_results_simp <;> rfl
theorem h1_v56 : StableHlo.after hostOps1 W (Proc.devRef .tc main_v56) = (shapeCast S50000x1 (W (Proc.devRef .tc main_v17)) Facts₀.shapeCasts_S50000_S50000x1) := by
  dsimp only [hostOps1]; after_results_simp <;> rfl
theorem h1_v53 : StableHlo.after hostOps1 W (Proc.devRef .tc main_v53) = (transpose S128x128 [1, 0] (W (Proc.devRef .tc main_arg7)) Facts₀.transposes_S128x128_S128x128_1_0) := by
  dsimp only [hostOps1]; after_results_simp <;> rfl
theorem h1_v55 : StableHlo.after hostOps1 W (Proc.devRef .tc main_v55) = (shapeCast S1x128 (W (Proc.devRef .tc main_arg8)) Facts₀.shapeCasts_S128_S1x128) := by
  dsimp only [hostOps1]; after_results_simp <;> rfl
theorem h1_v54 : StableHlo.after hostOps1 W (Proc.devRef .tc main_v54) = (transpose S128x128 [1, 0] (W (Proc.devRef .tc main_arg9)) Facts₀.transposes_S128x128_S128x128_1_0) := by
  dsimp only [hostOps1]; after_results_simp <;> rfl
theorem h2_v72 : StableHlo.after hostOps2 W (Proc.devRef .tc main_v72) = aggOf (W (Proc.devRef .tc main_v57)) (W (Proc.devRef .tc main_v7)) (W (Proc.devRef .tc main_v9)) (W (Proc.devRef .tc main_v5)) := by
  dsimp only [hostOps2]; after_results_simp <;> rfl
theorem h2_v76 : StableHlo.after hostOps2 W (Proc.devRef .tc main_v76) = (shapeCast S50000x1 (W (Proc.devRef .tc main_v13)) Facts₀.shapeCasts_S50000_S50000x1) := by
  dsimp only [hostOps2]; after_results_simp <;> rfl
theorem h2_v73 : StableHlo.after hostOps2 W (Proc.devRef .tc main_v73) = (transpose S128x128 [1, 0] (W (Proc.devRef .tc main_arg10)) Facts₀.transposes_S128x128_S128x128_1_0) := by
  dsimp only [hostOps2]; after_results_simp <;> rfl
theorem h2_v75 : StableHlo.after hostOps2 W (Proc.devRef .tc main_v75) = (shapeCast S1x128 (W (Proc.devRef .tc main_arg11)) Facts₀.shapeCasts_S128_S1x128) := by
  dsimp only [hostOps2]; after_results_simp <;> rfl
theorem h2_v74 : StableHlo.after hostOps2 W (Proc.devRef .tc main_v74) = (transpose S128x128 [1, 0] (W (Proc.devRef .tc main_arg12)) Facts₀.transposes_S128x128_S128x128_1_0) := by
  dsimp only [hostOps2]; after_results_simp <;> rfl
theorem h3_v92 : StableHlo.after hostOps3 W (Proc.devRef .tc main_v92) = aggOf (W (Proc.devRef .tc main_v37)) (W (Proc.devRef .tc main_v9)) (W (Proc.devRef .tc main_v7)) (W (Proc.devRef .tc main_v5)) := by
  dsimp only [hostOps3]; after_results_simp <;> rfl
theorem h3_v96 : StableHlo.after hostOps3 W (Proc.devRef .tc main_v96) = (shapeCast S50000x1 (W (Proc.devRef .tc main_v17)) Facts₀.shapeCasts_S50000_S50000x1) := by
  dsimp only [hostOps3]; after_results_simp <;> rfl
theorem h3_v93 : StableHlo.after hostOps3 W (Proc.devRef .tc main_v93) = (transpose S128x128 [1, 0] (W (Proc.devRef .tc main_arg13)) Facts₀.transposes_S128x128_S128x128_1_0) := by
  dsimp only [hostOps3]; after_results_simp <;> rfl
theorem h3_v95 : StableHlo.after hostOps3 W (Proc.devRef .tc main_v95) = (shapeCast S1x128 (W (Proc.devRef .tc main_arg14)) Facts₀.shapeCasts_S128_S1x128) := by
  dsimp only [hostOps3]; after_results_simp <;> rfl
theorem h3_v94 : StableHlo.after hostOps3 W (Proc.devRef .tc main_v94) = (transpose S128x128 [1, 0] (W (Proc.devRef .tc main_arg15)) Facts₀.transposes_S128x128_S128x128_1_0) := by
  dsimp only [hostOps3]; after_results_simp <;> rfl
theorem k0_arg0 : StableHlo.after hostOps0 W (Proc.devRef .tc main_arg0) = W (Proc.devRef .tc main_arg0) := by
  dsimp only [hostOps0]; after_results_simp <;> rfl
theorem k0_arg1 : StableHlo.after hostOps0 W (Proc.devRef .tc main_arg1) = W (Proc.devRef .tc main_arg1) := by
  dsimp only [hostOps0]; after_results_simp <;> rfl
theorem k0_arg7 : StableHlo.after hostOps0 W (Proc.devRef .tc main_arg7) = W (Proc.devRef .tc main_arg7) := by
  dsimp only [hostOps0]; after_results_simp <;> rfl
theorem k0_arg8 : StableHlo.after hostOps0 W (Proc.devRef .tc main_arg8) = W (Proc.devRef .tc main_arg8) := by
  dsimp only [hostOps0]; after_results_simp <;> rfl
theorem k0_arg9 : StableHlo.after hostOps0 W (Proc.devRef .tc main_arg9) = W (Proc.devRef .tc main_arg9) := by
  dsimp only [hostOps0]; after_results_simp <;> rfl
theorem k0_arg10 : StableHlo.after hostOps0 W (Proc.devRef .tc main_arg10) = W (Proc.devRef .tc main_arg10) := by
  dsimp only [hostOps0]; after_results_simp <;> rfl
theorem k0_arg11 : StableHlo.after hostOps0 W (Proc.devRef .tc main_arg11) = W (Proc.devRef .tc main_arg11) := by
  dsimp only [hostOps0]; after_results_simp <;> rfl
theorem k0_arg12 : StableHlo.after hostOps0 W (Proc.devRef .tc main_arg12) = W (Proc.devRef .tc main_arg12) := by
  dsimp only [hostOps0]; after_results_simp <;> rfl
theorem k0_arg13 : StableHlo.after hostOps0 W (Proc.devRef .tc main_arg13) = W (Proc.devRef .tc main_arg13) := by
  dsimp only [hostOps0]; after_results_simp <;> rfl
theorem k0_arg14 : StableHlo.after hostOps0 W (Proc.devRef .tc main_arg14) = W (Proc.devRef .tc main_arg14) := by
  dsimp only [hostOps0]; after_results_simp <;> rfl
theorem k0_arg15 : StableHlo.after hostOps0 W (Proc.devRef .tc main_arg15) = W (Proc.devRef .tc main_arg15) := by
  dsimp only [hostOps0]; after_results_simp <;> rfl
theorem k1_arg0 : StableHlo.after hostOps1 W (Proc.devRef .tc main_arg0) = W (Proc.devRef .tc main_arg0) := by
  dsimp only [hostOps1]; after_results_simp <;> rfl
theorem k1_v37 : StableHlo.after hostOps1 W (Proc.devRef .tc main_v37) = W (Proc.devRef .tc main_v37) := by
  dsimp only [hostOps1]; after_results_simp <;> rfl
theorem k1_v5 : StableHlo.after hostOps1 W (Proc.devRef .tc main_v5) = W (Proc.devRef .tc main_v5) := by
  dsimp only [hostOps1]; after_results_simp <;> rfl
theorem k1_v7 : StableHlo.after hostOps1 W (Proc.devRef .tc main_v7) = W (Proc.devRef .tc main_v7) := by
  dsimp only [hostOps1]; after_results_simp <;> rfl
theorem k1_v9 : StableHlo.after hostOps1 W (Proc.devRef .tc main_v9) = W (Proc.devRef .tc main_v9) := by
  dsimp only [hostOps1]; after_results_simp <;> rfl
theorem k1_v13 : StableHlo.after hostOps1 W (Proc.devRef .tc main_v13) = W (Proc.devRef .tc main_v13) := by
  dsimp only [hostOps1]; after_results_simp <;> rfl
theorem k1_v17 : StableHlo.after hostOps1 W (Proc.devRef .tc main_v17) = W (Proc.devRef .tc main_v17) := by
  dsimp only [hostOps1]; after_results_simp <;> rfl
theorem k1_arg10 : StableHlo.after hostOps1 W (Proc.devRef .tc main_arg10) = W (Proc.devRef .tc main_arg10) := by
  dsimp only [hostOps1]; after_results_simp <;> rfl
theorem k1_arg11 : StableHlo.after hostOps1 W (Proc.devRef .tc main_arg11) = W (Proc.devRef .tc main_arg11) := by
  dsimp only [hostOps1]; after_results_simp <;> rfl
theorem k1_arg12 : StableHlo.after hostOps1 W (Proc.devRef .tc main_arg12) = W (Proc.devRef .tc main_arg12) := by
  dsimp only [hostOps1]; after_results_simp <;> rfl
theorem k1_arg13 : StableHlo.after hostOps1 W (Proc.devRef .tc main_arg13) = W (Proc.devRef .tc main_arg13) := by
  dsimp only [hostOps1]; after_results_simp <;> rfl
theorem k1_arg14 : StableHlo.after hostOps1 W (Proc.devRef .tc main_arg14) = W (Proc.devRef .tc main_arg14) := by
  dsimp only [hostOps1]; after_results_simp <;> rfl
theorem k1_arg15 : StableHlo.after hostOps1 W (Proc.devRef .tc main_arg15) = W (Proc.devRef .tc main_arg15) := by
  dsimp only [hostOps1]; after_results_simp <;> rfl
theorem k2_v57 : StableHlo.after hostOps2 W (Proc.devRef .tc main_v57) = W (Proc.devRef .tc main_v57) := by
  dsimp only [hostOps2]; after_results_simp <;> rfl
theorem k2_v37 : StableHlo.after hostOps2 W (Proc.devRef .tc main_v37) = W (Proc.devRef .tc main_v37) := by
  dsimp only [hostOps2]; after_results_simp <;> rfl
theorem k2_v5 : StableHlo.after hostOps2 W (Proc.devRef .tc main_v5) = W (Proc.devRef .tc main_v5) := by
  dsimp only [hostOps2]; after_results_simp <;> rfl
theorem k2_v7 : StableHlo.after hostOps2 W (Proc.devRef .tc main_v7) = W (Proc.devRef .tc main_v7) := by
  dsimp only [hostOps2]; after_results_simp <;> rfl
theorem k2_v9 : StableHlo.after hostOps2 W (Proc.devRef .tc main_v9) = W (Proc.devRef .tc main_v9) := by
  dsimp only [hostOps2]; after_results_simp <;> rfl
theorem k2_v17 : StableHlo.after hostOps2 W (Proc.devRef .tc main_v17) = W (Proc.devRef .tc main_v17) := by
  dsimp only [hostOps2]; after_results_simp <;> rfl
theorem k2_arg13 : StableHlo.after hostOps2 W (Proc.devRef .tc main_arg13) = W (Proc.devRef .tc main_arg13) := by
  dsimp only [hostOps2]; after_results_simp <;> rfl
theorem k2_arg14 : StableHlo.after hostOps2 W (Proc.devRef .tc main_arg14) = W (Proc.devRef .tc main_arg14) := by
  dsimp only [hostOps2]; after_results_simp <;> rfl
theorem k2_arg15 : StableHlo.after hostOps2 W (Proc.devRef .tc main_arg15) = W (Proc.devRef .tc main_arg15) := by
  dsimp only [hostOps2]; after_results_simp <;> rfl
theorem k3_v37 : StableHlo.after hostOps3 W (Proc.devRef .tc main_v37) = W (Proc.devRef .tc main_v37) := by
  dsimp only [hostOps3]; after_results_simp <;> rfl
theorem k3_v77 : StableHlo.after hostOps3 W (Proc.devRef .tc main_v77) = W (Proc.devRef .tc main_v77) := by
  dsimp only [hostOps3]; after_results_simp <;> rfl

end Stretches

/-! ## The fold, boundary by boundary -/

section Run

variable (m : (ℓ : Loc nD τ sig) → Buf (Elt Ideal) ℓ) (ρ : Dev nD → PrngReg) (c : Dev nD)

/-- The first layer's two results and the second layer's two results, as functions of the launch memory. -/
def s1 : SN.Idx → EReal := stepRelu (m ((c : Thread nD τ).loc main_arg1)) (aggOf (m ((c : Thread nD τ).loc main_arg1)) (srcOf (m ((c : Thread nD τ).loc main_arg2))) (dstOf (m ((c : Thread nD τ).loc main_arg2))) (edgeW (m ((c : Thread nD τ).loc main_arg3)))) (cntOf (dstOf (m ((c : Thread nD τ).loc main_arg2)))) (m ((c : Thread nD τ).loc main_arg4)) (m ((c : Thread nD τ).loc main_arg5)) (m ((c : Thread nD τ).loc main_arg6))
def t1 : SN.Idx → EReal := stepRelu (m ((c : Thread nD τ).loc main_arg0)) (aggOf (m ((c : Thread nD τ).loc main_arg0)) (dstOf (m ((c : Thread nD τ).loc main_arg2))) (srcOf (m ((c : Thread nD τ).loc main_arg2))) (edgeW (m ((c : Thread nD τ).loc main_arg3)))) (cntOf (srcOf (m ((c : Thread nD τ).loc main_arg2)))) (m ((c : Thread nD τ).loc main_arg7)) (m ((c : Thread nD τ).loc main_arg8)) (m ((c : Thread nD τ).loc main_arg9))
def s2 : SN.Idx → EReal := step (t1 m c) (aggOf (t1 m c) (srcOf (m ((c : Thread nD τ).loc main_arg2))) (dstOf (m ((c : Thread nD τ).loc main_arg2))) (edgeW (m ((c : Thread nD τ).loc main_arg3)))) (cntOf (dstOf (m ((c : Thread nD τ).loc main_arg2)))) (m ((c : Thread nD τ).loc main_arg10)) (m ((c : Thread nD τ).loc main_arg11)) (m ((c : Thread nD τ).loc main_arg12))
def t2 : SN.Idx → EReal := step (s1 m c) (aggOf (s1 m c) (dstOf (m ((c : Thread nD τ).loc main_arg2))) (srcOf (m ((c : Thread nD τ).loc main_arg2))) (edgeW (m ((c : Thread nD τ).loc main_arg3)))) (cntOf (srcOf (m ((c : Thread nD τ).loc main_arg2)))) (m ((c : Thread nD τ).loc main_arg13)) (m ((c : Thread nD τ).loc main_arg14)) (m ((c : Thread nD τ).loc main_arg15))

/-! ### After the first stretch of host operations -/
theorem w1_v5 : W1 m ρ c (Proc.devRef .tc main_v5) = (edgeW (m ((c : Thread nD τ).loc main_arg3))) := h0_v5 (W0 m ρ c)
theorem w1_v7 : W1 m ρ c (Proc.devRef .tc main_v7) = (srcOf (m ((c : Thread nD τ).loc main_arg2))) := h0_v7 (W0 m ρ c)
theorem w1_v9 : W1 m ρ c (Proc.devRef .tc main_v9) = (dstOf (m ((c : Thread nD τ).loc main_arg2))) := h0_v9 (W0 m ρ c)
theorem w1_v13 : W1 m ρ c (Proc.devRef .tc main_v13) = (cntOf (dstOf (m ((c : Thread nD τ).loc main_arg2)))) := h0_v13 (W0 m ρ c)
theorem w1_v17 : W1 m ρ c (Proc.devRef .tc main_v17) = (cntOf (srcOf (m ((c : Thread nD τ).loc main_arg2)))) := h0_v17 (W0 m ρ c)
theorem w1_arg0 : W1 m ρ c (Proc.devRef .tc main_arg0) = (m ((c : Thread nD τ).loc main_arg0)) := k0_arg0 (W0 m ρ c)
theorem w1_arg1 : W1 m ρ c (Proc.devRef .tc main_arg1) = (m ((c : Thread nD τ).loc main_arg1)) := k0_arg1 (W0 m ρ c)
theorem w1_arg7 : W1 m ρ c (Proc.devRef .tc main_arg7) = (m ((c : Thread nD τ).loc main_arg7)) := k0_arg7 (W0 m ρ c)
theorem w1_arg8 : W1 m ρ c (Proc.devRef .tc main_arg8) = (m ((c : Thread nD τ).loc main_arg8)) := k0_arg8 (W0 m ρ c)
theorem w1_arg9 : W1 m ρ c (Proc.devRef .tc main_arg9) = (m ((c : Thread nD τ).loc main_arg9)) := k0_arg9 (W0 m ρ c)
theorem w1_arg10 : W1 m ρ c (Proc.devRef .tc main_arg10) = (m ((c : Thread nD τ).loc main_arg10)) := k0_arg10 (W0 m ρ c)
theorem w1_arg11 : W1 m ρ c (Proc.devRef .tc main_arg11) = (m ((c : Thread nD τ).loc main_arg11)) := k0_arg11 (W0 m ρ c)
theorem w1_arg12 : W1 m ρ c (Proc.devRef .tc main_arg12) = (m ((c : Thread nD τ).loc main_arg12)) := k0_arg12 (W0 m ρ c)
theorem w1_arg13 : W1 m ρ c (Proc.devRef .tc main_arg13) = (m ((c : Thread nD τ).loc main_arg13)) := k0_arg13 (W0 m ρ c)
theorem w1_arg14 : W1 m ρ c (Proc.devRef .tc main_arg14) = (m ((c : Thread nD τ).loc main_arg14)) := k0_arg14 (W0 m ρ c)
theorem w1_arg15 : W1 m ρ c (Proc.devRef .tc main_arg15) = (m ((c : Thread nD τ).loc main_arg15)) := k0_arg15 (W0 m ρ c)
theorem w1_v32 : W1 m ρ c (Proc.devRef .tc main_v32) = aggOf (m ((c : Thread nD τ).loc main_arg1)) (srcOf (m ((c : Thread nD τ).loc main_arg2))) (dstOf (m ((c : Thread nD τ).loc main_arg2))) (edgeW (m ((c : Thread nD τ).loc main_arg3))) := h0_v32 (W0 m ρ c)
theorem w1_v36 : W1 m ρ c (Proc.devRef .tc main_v36) = colOf (cntOf (dstOf (m ((c : Thread nD τ).loc main_arg2)))) := (h0_v36 (W0 m ρ c)).trans (col_eq _ _)
theorem w1_v33 : W1 m ρ c (Proc.devRef .tc main_v33) = tr (m ((c : Thread nD τ).loc main_arg4)) := (h0_v33 (W0 m ρ c)).trans (tr_eq _ _)
theorem w1_v35 : W1 m ρ c (Proc.devRef .tc main_v35) = rowOf (m ((c : Thread nD τ).loc main_arg5)) := (h0_v35 (W0 m ρ c)).trans (row_eq _ _)
theorem w1_v34 : W1 m ρ c (Proc.devRef .tc main_v34) = tr (m ((c : Thread nD τ).loc main_arg6)) := (h0_v34 (W0 m ρ c)).trans (tr_eq _ _)

/-! ### After the first launch -/
theorem w2_v37 : W2 m ρ c (Proc.devRef .tc main_v37) = s1 m c := by
  rw [show W2 m ρ c (Proc.devRef .tc main_v37) = (dat0 (V1 m ρ) c).arrAt 6 cfg0.N from W2_arr m ρ c 6, arr0]
  show linRelu (W1 m ρ c (Proc.devRef .tc main_arg1)) (W1 m ρ c (Proc.devRef .tc main_v32)) (W1 m ρ c (Proc.devRef .tc main_v36)) (W1 m ρ c (Proc.devRef .tc main_v33)) (W1 m ρ c (Proc.devRef .tc main_v35)) (W1 m ρ c (Proc.devRef .tc main_v34)) = _
  rw [w1_arg1, w1_v32, w1_v36, w1_v33, w1_v35, w1_v34]
  rfl
theorem w2_v5 : W2 m ρ c (Proc.devRef .tc main_v5) = (edgeW (m ((c : Thread nD τ).loc main_arg3))) := (W2_of_ne m ρ c main_v5 (by decide)).trans (w1_v5 m ρ c)
theorem w2_v7 : W2 m ρ c (Proc.devRef .tc main_v7) = (srcOf (m ((c : Thread nD τ).loc main_arg2))) := (W2_of_ne m ρ c main_v7 (by decide)).trans (w1_v7 m ρ c)
theorem w2_v9 : W2 m ρ c (Proc.devRef .tc main_v9) = (dstOf (m ((c : Thread nD τ).loc main_arg2))) := (W2_of_ne m ρ c main_v9 (by decide)).trans (w1_v9 m ρ c)
theorem w2_v13 : W2 m ρ c (Proc.devRef .tc main_v13) = (cntOf (dstOf (m ((c : Thread nD τ).loc main_arg2)))) := (W2_of_ne m ρ c main_v13 (by decide)).trans (w1_v13 m ρ c)
theorem w2_v17 : W2 m ρ c (Proc.devRef .tc main_v17) = (cntOf (srcOf (m ((c : Thread nD τ).loc main_arg2)))) := (W2_of_ne m ρ c main_v17 (by decide)).trans (w1_v17 m ρ c)
theorem w2_arg0 : W2 m ρ c (Proc.devRef .tc main_arg0) = (m ((c : Thread nD τ).loc main_arg0)) := (W2_of_ne m ρ c main_arg0 (by decide)).trans (w1_arg0 m ρ c)
theorem w2_arg7 : W2 m ρ c (Proc.devRef .tc main_arg7) = (m ((c : Thread nD τ).loc main_arg7)) := (W2_of_ne m ρ c main_arg7 (by decide)).trans (w1_arg7 m ρ c)
theorem w2_arg8 : W2 m ρ c (Proc.devRef .tc main_arg8) = (m ((c : Thread nD τ).loc main_arg8)) := (W2_of_ne m ρ c main_arg8 (by decide)).trans (w1_arg8 m ρ c)
theorem w2_arg9 : W2 m ρ c (Proc.devRef .tc main_arg9) = (m ((c : Thread nD τ).loc main_arg9)) := (W2_of_ne m ρ c main_arg9 (by decide)).trans (w1_arg9 m ρ c)
theorem w2_arg10 : W2 m ρ c (Proc.devRef .tc main_arg10) = (m ((c : Thread nD τ).loc main_arg10)) := (W2_of_ne m ρ c main_arg10 (by decide)).trans (w1_arg10 m ρ c)
theorem w2_arg11 : W2 m ρ c (Proc.devRef .tc main_arg11) = (m ((c : Thread nD τ).loc main_arg11)) := (W2_of_ne m ρ c main_arg11 (by decide)).trans (w1_arg11 m ρ c)
theorem w2_arg12 : W2 m ρ c (Proc.devRef .tc main_arg12) = (m ((c : Thread nD τ).loc main_arg12)) := (W2_of_ne m ρ c main_arg12 (by decide)).trans (w1_arg12 m ρ c)
theorem w2_arg13 : W2 m ρ c (Proc.devRef .tc main_arg13) = (m ((c : Thread nD τ).loc main_arg13)) := (W2_of_ne m ρ c main_arg13 (by decide)).trans (w1_arg13 m ρ c)
theorem w2_arg14 : W2 m ρ c (Proc.devRef .tc main_arg14) = (m ((c : Thread nD τ).loc main_arg14)) := (W2_of_ne m ρ c main_arg14 (by decide)).trans (w1_arg14 m ρ c)
theorem w2_arg15 : W2 m ρ c (Proc.devRef .tc main_arg15) = (m ((c : Thread nD τ).loc main_arg15)) := (W2_of_ne m ρ c main_arg15 (by decide)).trans (w1_arg15 m ρ c)

/-! ### After the second stretch -/
theorem w3_arg0 : W3 m ρ c (Proc.devRef .tc main_arg0) = (m ((c : Thread nD τ).loc main_arg0)) := (k1_arg0 (W2 m ρ c)).trans (w2_arg0 m ρ c)
theorem w3_v37 : W3 m ρ c (Proc.devRef .tc main_v37) = s1 m c := (k1_v37 (W2 m ρ c)).trans (w2_v37 m ρ c)
theorem w3_v5 : W3 m ρ c (Proc.devRef .tc main_v5) = (edgeW (m ((c : Thread nD τ).loc main_arg3))) := (k1_v5 (W2 m ρ c)).trans (w2_v5 m ρ c)
theorem w3_v7 : W3 m ρ c (Proc.devRef .tc main_v7) = (srcOf (m ((c : Thread nD τ).loc main_arg2))) := (k1_v7 (W2 m ρ c)).trans (w2_v7 m ρ c)
theorem w3_v9 : W3 m ρ c (Proc.devRef .tc main_v9) = (dstOf (m ((c : Thread nD τ).loc main_arg2))) := (k1_v9 (W2 m ρ c)).trans (w2_v9 m ρ c)
theorem w3_v13 : W3 m ρ c (Proc.devRef .tc main_v13) = (cntOf (dstOf (m ((c : Thread nD τ).loc main_arg2)))) := (k1_v13 (W2 m ρ c)).trans (w2_v13 m ρ c)
theorem w3_v17 : W3 m ρ c (Proc.devRef .tc main_v17) = (cntOf (srcOf (m ((c : Thread nD τ).loc main_arg2)))) := (k1_v17 (W2 m ρ c)).trans (w2_v17 m ρ c)
theorem w3_arg10 : W3 m ρ c (Proc.devRef .tc main_arg10) = (m ((c : Thread nD τ).loc main_arg10)) := (k1_arg10 (W2 m ρ c)).trans (w2_arg10 m ρ c)
theorem w3_arg11 : W3 m ρ c (Proc.devRef .tc main_arg11) = (m ((c : Thread nD τ).loc main_arg11)) := (k1_arg11 (W2 m ρ c)).trans (w2_arg11 m ρ c)
theorem w3_arg12 : W3 m ρ c (Proc.devRef .tc main_arg12) = (m ((c : Thread nD τ).loc main_arg12)) := (k1_arg12 (W2 m ρ c)).trans (w2_arg12 m ρ c)
theorem w3_arg13 : W3 m ρ c (Proc.devRef .tc main_arg13) = (m ((c : Thread nD τ).loc main_arg13)) := (k1_arg13 (W2 m ρ c)).trans (w2_arg13 m ρ c)
theorem w3_arg14 : W3 m ρ c (Proc.devRef .tc main_arg14) = (m ((c : Thread nD τ).loc main_arg14)) := (k1_arg14 (W2 m ρ c)).trans (w2_arg14 m ρ c)
theorem w3_arg15 : W3 m ρ c (Proc.devRef .tc main_arg15) = (m ((c : Thread nD τ).loc main_arg15)) := (k1_arg15 (W2 m ρ c)).trans (w2_arg15 m ρ c)
theorem w3_v52 : W3 m ρ c (Proc.devRef .tc main_v52) = aggOf (m ((c : Thread nD τ).loc main_arg0)) (dstOf (m ((c : Thread nD τ).loc main_arg2))) (srcOf (m ((c : Thread nD τ).loc main_arg2))) (edgeW (m ((c : Thread nD τ).loc main_arg3))) := by
  rw [show W3 m ρ c (Proc.devRef .tc main_v52) = _ from h1_v52 (W2 m ρ c), w2_arg0, w2_v9, w2_v7, w2_v5]
theorem w3_v56 : W3 m ρ c (Proc.devRef .tc main_v56) = colOf (cntOf (srcOf (m ((c : Thread nD τ).loc main_arg2)))) := by
  rw [show W3 m ρ c (Proc.devRef .tc main_v56) = _ from h1_v56 (W2 m ρ c), w2_v17, col_eq]
theorem w3_v53 : W3 m ρ c (Proc.devRef .tc main_v53) = tr (m ((c : Thread nD τ).loc main_arg7)) := by
  rw [show W3 m ρ c (Proc.devRef .tc main_v53) = _ from h1_v53 (W2 m ρ c), w2_arg7, tr_eq]
theorem w3_v55 : W3 m ρ c (Proc.devRef .tc main_v55) = rowOf (m ((c : Thread nD τ).loc main_arg8)) := by
  rw [show W3 m ρ c (Proc.devRef .tc main_v55) = _ from h1_v55 (W2 m ρ c), w2_arg8, row_eq]
theorem w3_v54 : W3 m ρ c (Proc.devRef .tc main_v54) = tr (m ((c : Thread nD τ).loc main_arg9)) := by
  rw [show W3 m ρ c (Proc.devRef .tc main_v54) = _ from h1_v54 (W2 m ρ c), w2_arg9, tr_eq]

/-! ### After the second launch -/
theorem w4_v57 : W4 m ρ c (Proc.devRef .tc main_v57) = t1 m c := by
  rw [show W4 m ρ c (Proc.devRef .tc main_v57) = (dat1 (V3 m ρ) c).arrAt 6 cfg1.N from W4_arr m ρ c 6, arr1]
  show linRelu (W3 m ρ c (Proc.devRef .tc main_arg0)) (W3 m ρ c (Proc.devRef .tc main_v52)) (W3 m ρ c (Proc.devRef .tc main_v56)) (W3 m ρ c (Proc.devRef .tc main_v53)) (W3 m ρ c (Proc.devRef .tc main_v55)) (W3 m ρ c (Proc.devRef .tc main_v54)) = _
  rw [w3_arg0, w3_v52, w3_v56, w3_v53, w3_v55, w3_v54]
  rfl
theorem w4_v37 : W4 m ρ c (Proc.devRef .tc main_v37) = s1 m c := (W4_of_ne m ρ c main_v37 (by decide)).trans (w3_v37 m ρ c)
theorem w4_v5 : W4 m ρ c (Proc.devRef .tc main_v5) = (edgeW (m ((c : Thread nD τ).loc main_arg3))) := (W4_of_ne m ρ c main_v5 (by decide)).trans (w3_v5 m ρ c)
theorem w4_v7 : W4 m ρ c (Proc.devRef .tc main_v7) = (srcOf (m ((c : Thread nD τ).loc main_arg2))) := (W4_of_ne m ρ c main_v7 (by decide)).trans (w3_v7 m ρ c)
theorem w4_v9 : W4 m ρ c (Proc.devRef .tc main_v9) = (dstOf (m ((c : Thread nD τ).loc main_arg2))) := (W4_of_ne m ρ c main_v9 (by decide)).trans (w3_v9 m ρ c)
theorem w4_v13 : W4 m ρ c (Proc.devRef .tc main_v13) = (cntOf (dstOf (m ((c : Thread nD τ).loc main_arg2)))) := (W4_of_ne m ρ c main_v13 (by decide)).trans (w3_v13 m ρ c)
theorem w4_v17 : W4 m ρ c (Proc.devRef .tc main_v17) = (cntOf (srcOf (m ((c : Thread nD τ).loc main_arg2)))) := (W4_of_ne m ρ c main_v17 (by decide)).trans (w3_v17 m ρ c)
theorem w4_arg10 : W4 m ρ c (Proc.devRef .tc main_arg10) = (m ((c : Thread nD τ).loc main_arg10)) := (W4_of_ne m ρ c main_arg10 (by decide)).trans (w3_arg10 m ρ c)
theorem w4_arg11 : W4 m ρ c (Proc.devRef .tc main_arg11) = (m ((c : Thread nD τ).loc main_arg11)) := (W4_of_ne m ρ c main_arg11 (by decide)).trans (w3_arg11 m ρ c)
theorem w4_arg12 : W4 m ρ c (Proc.devRef .tc main_arg12) = (m ((c : Thread nD τ).loc main_arg12)) := (W4_of_ne m ρ c main_arg12 (by decide)).trans (w3_arg12 m ρ c)
theorem w4_arg13 : W4 m ρ c (Proc.devRef .tc main_arg13) = (m ((c : Thread nD τ).loc main_arg13)) := (W4_of_ne m ρ c main_arg13 (by decide)).trans (w3_arg13 m ρ c)
theorem w4_arg14 : W4 m ρ c (Proc.devRef .tc main_arg14) = (m ((c : Thread nD τ).loc main_arg14)) := (W4_of_ne m ρ c main_arg14 (by decide)).trans (w3_arg14 m ρ c)
theorem w4_arg15 : W4 m ρ c (Proc.devRef .tc main_arg15) = (m ((c : Thread nD τ).loc main_arg15)) := (W4_of_ne m ρ c main_arg15 (by decide)).trans (w3_arg15 m ρ c)

/-! ### After the third stretch -/
theorem w5_v57 : W5 m ρ c (Proc.devRef .tc main_v57) = t1 m c := (k2_v57 (W4 m ρ c)).trans (w4_v57 m ρ c)
theorem w5_v37 : W5 m ρ c (Proc.devRef .tc main_v37) = s1 m c := (k2_v37 (W4 m ρ c)).trans (w4_v37 m ρ c)
theorem w5_v5 : W5 m ρ c (Proc.devRef .tc main_v5) = (edgeW (m ((c : Thread nD τ).loc main_arg3))) := (k2_v5 (W4 m ρ c)).trans (w4_v5 m ρ c)
theorem w5_v7 : W5 m ρ c (Proc.devRef .tc main_v7) = (srcOf (m ((c : Thread nD τ).loc main_arg2))) := (k2_v7 (W4 m ρ c)).trans (w4_v7 m ρ c)
theorem w5_v9 : W5 m ρ c (Proc.devRef .tc main_v9) = (dstOf (m ((c : Thread nD τ).loc main_arg2))) := (k2_v9 (W4 m ρ c)).trans (w4_v9 m ρ c)
theorem w5_v17 : W5 m ρ c (Proc.devRef .tc main_v17) = (cntOf (srcOf (m ((c : Thread nD τ).loc main_arg2)))) := (k2_v17 (W4 m ρ c)).trans (w4_v17 m ρ c)
theorem w5_arg13 : W5 m ρ c (Proc.devRef .tc main_arg13) = (m ((c : Thread nD τ).loc main_arg13)) := (k2_arg13 (W4 m ρ c)).trans (w4_arg13 m ρ c)
theorem w5_arg14 : W5 m ρ c (Proc.devRef .tc main_arg14) = (m ((c : Thread nD τ).loc main_arg14)) := (k2_arg14 (W4 m ρ c)).trans (w4_arg14 m ρ c)
theorem w5_arg15 : W5 m ρ c (Proc.devRef .tc main_arg15) = (m ((c : Thread nD τ).loc main_arg15)) := (k2_arg15 (W4 m ρ c)).trans (w4_arg15 m ρ c)
theorem w5_v72 : W5 m ρ c (Proc.devRef .tc main_v72) = aggOf (t1 m c) (srcOf (m ((c : Thread nD τ).loc main_arg2))) (dstOf (m ((c : Thread nD τ).loc main_arg2))) (edgeW (m ((c : Thread nD τ).loc main_arg3))) := by
  rw [show W5 m ρ c (Proc.devRef .tc main_v72) = _ from h2_v72 (W4 m ρ c), w4_v57, w4_v7, w4_v9, w4_v5]
theorem w5_v76 : W5 m ρ c (Proc.devRef .tc main_v76) = colOf (cntOf (dstOf (m ((c : Thread nD τ).loc main_arg2)))) := by
  rw [show W5 m ρ c (Proc.devRef .tc main_v76) = _ from h2_v76 (W4 m ρ c), w4_v13, col_eq]
theorem w5_v73 : W5 m ρ c (Proc.devRef .tc main_v73) = tr (m ((c : Thread nD τ).loc main_arg10)) := by
  rw [show W5 m ρ c (Proc.devRef .tc main_v73) = _ from h2_v73 (W4 m ρ c), w4_arg10, tr_eq]
theorem w5_v75 : W5 m ρ c (Proc.devRef .tc main_v75) = rowOf (m ((c : Thread nD τ).loc main_arg11)) := by
  rw [show W5 m ρ c (Proc.devRef .tc main_v75) = _ from h2_v75 (W4 m ρ c), w4_arg11, row_eq]
theorem w5_v74 : W5 m ρ c (Proc.devRef .tc main_v74) = tr (m ((c : Thread nD τ).loc main_arg12)) := by
  rw [show W5 m ρ c (Proc.devRef .tc main_v74) = _ from h2_v74 (W4 m ρ c), w4_arg12, tr_eq]

/-! ### After the third launch -/
theorem w6_v77 : W6 m ρ c (Proc.devRef .tc main_v77) = s2 m c := by
  rw [show W6 m ρ c (Proc.devRef .tc main_v77) = (dat2 (V5 m ρ) c).arrAt 6 cfg2.N from W6_arr m ρ c 6, arr2]
  show lin (W5 m ρ c (Proc.devRef .tc main_v57)) (W5 m ρ c (Proc.devRef .tc main_v72)) (W5 m ρ c (Proc.devRef .tc main_v76)) (W5 m ρ c (Proc.devRef .tc main_v73)) (W5 m ρ c (Proc.devRef .tc main_v75)) (W5 m ρ c (Proc.devRef .tc main_v74)) = _
  rw [w5_v57, w5_v72, w5_v76, w5_v73, w5_v75, w5_v74]
  rfl
theorem w6_v37 : W6 m ρ c (Proc.devRef .tc main_v37) = s1 m c := (W6_of_ne m ρ c main_v37 (by decide)).trans (w5_v37 m ρ c)
theorem w6_v5 : W6 m ρ c (Proc.devRef .tc main_v5) = (edgeW (m ((c : Thread nD τ).loc main_arg3))) := (W6_of_ne m ρ c main_v5 (by decide)).trans (w5_v5 m ρ c)
theorem w6_v7 : W6 m ρ c (Proc.devRef .tc main_v7) = (srcOf (m ((c : Thread nD τ).loc main_arg2))) := (W6_of_ne m ρ c main_v7 (by decide)).trans (w5_v7 m ρ c)
theorem w6_v9 : W6 m ρ c (Proc.devRef .tc main_v9) = (dstOf (m ((c : Thread nD τ).loc main_arg2))) := (W6_of_ne m ρ c main_v9 (by decide)).trans (w5_v9 m ρ c)
theorem w6_v17 : W6 m ρ c (Proc.devRef .tc main_v17) = (cntOf (srcOf (m ((c : Thread nD τ).loc main_arg2)))) := (W6_of_ne m ρ c main_v17 (by decide)).trans (w5_v17 m ρ c)
theorem w6_arg13 : W6 m ρ c (Proc.devRef .tc main_arg13) = (m ((c : Thread nD τ).loc main_arg13)) := (W6_of_ne m ρ c main_arg13 (by decide)).trans (w5_arg13 m ρ c)
theorem w6_arg14 : W6 m ρ c (Proc.devRef .tc main_arg14) = (m ((c : Thread nD τ).loc main_arg14)) := (W6_of_ne m ρ c main_arg14 (by decide)).trans (w5_arg14 m ρ c)
theorem w6_arg15 : W6 m ρ c (Proc.devRef .tc main_arg15) = (m ((c : Thread nD τ).loc main_arg15)) := (W6_of_ne m ρ c main_arg15 (by decide)).trans (w5_arg15 m ρ c)

/-! ### After the fourth stretch -/
theorem w7_v37 : W7 m ρ c (Proc.devRef .tc main_v37) = s1 m c := (k3_v37 (W6 m ρ c)).trans (w6_v37 m ρ c)
theorem w7_v77 : W7 m ρ c (Proc.devRef .tc main_v77) = s2 m c := (k3_v77 (W6 m ρ c)).trans (w6_v77 m ρ c)
theorem w7_v92 : W7 m ρ c (Proc.devRef .tc main_v92) = aggOf (s1 m c) (dstOf (m ((c : Thread nD τ).loc main_arg2))) (srcOf (m ((c : Thread nD τ).loc main_arg2))) (edgeW (m ((c : Thread nD τ).loc main_arg3))) := by
  rw [show W7 m ρ c (Proc.devRef .tc main_v92) = _ from h3_v92 (W6 m ρ c), w6_v37, w6_v9, w6_v7, w6_v5]
theorem w7_v96 : W7 m ρ c (Proc.devRef .tc main_v96) = colOf (cntOf (srcOf (m ((c : Thread nD τ).loc main_arg2)))) := by
  rw [show W7 m ρ c (Proc.devRef .tc main_v96) = _ from h3_v96 (W6 m ρ c), w6_v17, col_eq]
theorem w7_v93 : W7 m ρ c (Proc.devRef .tc main_v93) = tr (m ((c : Thread nD τ).loc main_arg13)) := by
  rw [show W7 m ρ c (Proc.devRef .tc main_v93) = _ from h3_v93 (W6 m ρ c), w6_arg13, tr_eq]
theorem w7_v95 : W7 m ρ c (Proc.devRef .tc main_v95) = rowOf (m ((c : Thread nD τ).loc main_arg14)) := by
  rw [show W7 m ρ c (Proc.devRef .tc main_v95) = _ from h3_v95 (W6 m ρ c), w6_arg14, row_eq]
theorem w7_v94 : W7 m ρ c (Proc.devRef .tc main_v94) = tr (m ((c : Thread nD τ).loc main_arg15)) := by
  rw [show W7 m ρ c (Proc.devRef .tc main_v94) = _ from h3_v94 (W6 m ρ c), w6_arg15, tr_eq]

/-! ### After the fourth launch: the two results -/
theorem w8_v97 : W8 m ρ c (Proc.devRef .tc main_v97) = t2 m c := by
  rw [show W8 m ρ c (Proc.devRef .tc main_v97) = (dat3 (V7 m ρ) c).arrAt 6 cfg3.N from W8_arr m ρ c 6, arr3]
  show lin (W7 m ρ c (Proc.devRef .tc main_v37)) (W7 m ρ c (Proc.devRef .tc main_v92)) (W7 m ρ c (Proc.devRef .tc main_v96)) (W7 m ρ c (Proc.devRef .tc main_v93)) (W7 m ρ c (Proc.devRef .tc main_v95)) (W7 m ρ c (Proc.devRef .tc main_v94)) = _
  rw [w7_v37, w7_v92, w7_v96, w7_v93, w7_v95, w7_v94]
  rfl
theorem w8_v77 : W8 m ρ c (Proc.devRef .tc main_v77) = s2 m c := (W8_of_ne m ρ c main_v77 (by decide)).trans (w7_v77 m ρ c)

end Run

end Cert.Sage.Kernel

end
-- ==== Proof.RefSide.lean ====
/-
  The reference program's two results, each as two graph-convolution steps of the shared specification.

  Each result of the reference program is one long term of whole-array operations.  Read from the outside in, it is
  a step  (agg / max(cnt, 1)) · wlᵀ + b + x · wrᵀ  applied to the clamped value of an earlier such step, where the
  per-node sums `agg` and the per-node counts `cnt` come from the gather-and-scatter operations that are kept opaque.
  The first part of this file names that one step as a function of arrays, spelled with the whole-array operations
  exactly as they occur in the results, so that each result is, as a term, two nested steps.  The second part
  reads the step at an index: sums and quotients and maxima are taken entry by entry, a broadcast reads its operand
  at the matching entry, a transpose swaps the two coordinates, and the general dot product with one contracted axis
  is the sum over that axis of the products of the entries.  Read this way the step is, entry by entry, the
  specification's `linAt`.
-/
import proofs.«166268_j87548613362348_2_alg».proof.Proof.Gen.ReferenceIdeal.Run
import proofs.«166268_j87548613362348_2_alg».proof.Proof.Spec
import proofs.«166268_j87548613362348_2_alg».proof.Proof.HostPart
import Idealize.ShloMosaic.Lib.ValueIdx
import Idealize.ShloMosaic.Lib.Pipeline.Value
import Idealize.ShloMosaic.PureOps.Ideal.Laws
import Idealize.ShloMosaic.Lib.ValueLayout

noncomputable section

namespace Cert.Sage.Ref

open Idealize.ShloMosaic Idealize.ShloMosaic.TcCoe Idealize.SL.Sem Cert.ReferenceIdeal Cert.ReferenceIdeal.Gen Cert.ReferenceIdeal.Value
open Idealize.ShloMosaic.ValueIdx

/-- Node features, per-node numbers, weight matrices and bias vectors as the reference program holds them. -/
abbrev TN : Type := FVec Ideal S50000x128 .f32
abbrev TC : Type := FVec Ideal S50000 .f32
abbrev TW : Type := FVec Ideal S128x128 .f32
abbrev TB : Type := FVec Ideal S128 .f32

/-! ## One step, in whole-array operations -/

/-- One step as the reference program computes it:  (agg / max(cnt, 1)) · wlᵀ + b + x · wrᵀ. -/
def hostStep (x agg : TN) (cnt : TC) (wl : TW) (b : TB) (wr : TW) : TN :=
  addf (addf (Host.dotGeneral dot_S50000x128_S128x128_S50000x128_1_0_0_1_n_n none (Host.divf agg (broadcastInDim S50000x128 ![0, 1] bcast_S50000x1_S50000x128_0_1 (broadcastInDim S50000x1 ![0] bcast_S50000_S50000x1_0 (maximumf cnt (broadcastInDim S50000 ![] bcast_S_S50000 (constant (F := Ideal) S_ .f32 0x3F800000#32)))))) (transpose S128x128 [1, 0] wl transposes_S128x128_S128x128_1_0)) (broadcastInDim S50000x128 ![0, 1] bcast_S1x128_S50000x128_0_1 (broadcastInDim S1x128 ![1] bcast_S128_S1x128_1 b))) (Host.dotGeneral dot_S50000x128_S128x128_S50000x128_1_0_0_1_n_n none x (transpose S128x128 [1, 0] wr transposes_S128x128_S128x128_1_0))

/-- The clamp below at zero. -/
def hostRelu (y : TN) : TN :=
  maximumf y (broadcastInDim S50000x128 ![] bcast_S_S50000x128 (constant (F := Ideal) S_ .f32 0x00000000#32))

set_option maxRecDepth 8192 in
/-- The first result is, as a term, two nested steps. -/
theorem out0_host (m : (ℓ : Loc nD τ sig) → Buf (Elt Ideal) ℓ) (c : Dev nD) :
    res_main_v101 (F := Ideal) m c
      = hostStep (hostRelu (hostStep (m ((c.tc : Thread nD τ).loc main_arg0)) (aggOf (m ((c.tc : Thread nD τ).loc main_arg0)) (dstOf (m ((c.tc : Thread nD τ).loc main_arg2))) (srcOf (m ((c.tc : Thread nD τ).loc main_arg2))) (edgeW (m ((c.tc : Thread nD τ).loc main_arg3)))) (cntOf (srcOf (m ((c.tc : Thread nD τ).loc main_arg2)))) (m ((c.tc : Thread nD τ).loc main_arg7)) (m ((c.tc : Thread nD τ).loc main_arg8)) (m ((c.tc : Thread nD τ).loc main_arg9))))
          (aggOf (hostRelu (hostStep (m ((c.tc : Thread nD τ).loc main_arg0)) (aggOf (m ((c.tc : Thread nD τ).loc main_arg0)) (dstOf (m ((c.tc : Thread nD τ).loc main_arg2))) (srcOf (m ((c.tc : Thread nD τ).loc main_arg2))) (edgeW (m ((c.tc : Thread nD τ).loc main_arg3)))) (cntOf (srcOf (m ((c.tc : Thread nD τ).loc main_arg2)))) (m ((c.tc : Thread nD τ).loc main_arg7)) (m ((c.tc : Thread nD τ).loc main_arg8)) (m ((c.tc : Thread nD τ).loc main_arg9)))) (srcOf (m ((c.tc : Thread nD τ).loc main_arg2))) (dstOf (m ((c.tc : Thread nD τ).loc main_arg2))) (edgeW (m ((c.tc : Thread nD τ).loc main_arg3))))
          (cntOf (dstOf (m ((c.tc : Thread nD τ).loc main_arg2)))) (m ((c.tc : Thread nD τ).loc main_arg10)) (m ((c.tc : Thread nD τ).loc main_arg11)) (m ((c.tc : Thread nD τ).loc main_arg12)) := by
  unfold res_main_v101 hostStep hostRelu aggOf cntOf edgeW srcOf dstOf wrap
  rfl

set_option maxRecDepth 8192 in
/-- The second result is, as a term, two nested steps. -/
theorem out1_host (m : (ℓ : Loc nD τ sig) → Buf (Elt Ideal) ℓ) (c : Dev nD) :
    res_main_v131 (F := Ideal) m c
      = hostStep (hostRelu (hostStep (m ((c.tc : Thread nD τ).loc main_arg1)) (aggOf (m ((c.tc : Thread nD τ).loc main_arg1)) (srcOf (m ((c.tc : Thread nD τ).loc main_arg2))) (dstOf (m ((c.tc : Thread nD τ).loc main_arg2))) (edgeW (m ((c.tc : Thread nD τ).loc main_arg3)))) (cntOf (dstOf (m ((c.tc : Thread nD τ).loc main_arg2)))) (m ((c.tc : Thread nD τ).loc main_arg4)) (m ((c.tc : Thread nD τ).loc main_arg5)) (m ((c.tc : Thread nD τ).loc main_arg6))))
          (aggOf (hostRelu (hostStep (m ((c.tc : Thread nD τ).loc main_arg1)) (aggOf (m ((c.tc : Thread nD τ).loc main_arg1)) (srcOf (m ((c.tc : Thread nD τ).loc main_arg2))) (dstOf (m ((c.tc : Thread nD τ).loc main_arg2))) (edgeW (m ((c.tc : Thread nD τ).loc main_arg3)))) (cntOf (dstOf (m ((c.tc : Thread nD τ).loc main_arg2)))) (m ((c.tc : Thread nD τ).loc main_arg4)) (m ((c.tc : Thread nD τ).loc main_arg5)) (m ((c.tc : Thread nD τ).loc main_arg6)))) (dstOf (m ((c.tc : Thread nD τ).loc main_arg2))) (srcOf (m ((c.tc : Thread nD τ).loc main_arg2))) (edgeW (m ((c.tc : Thread nD τ).loc main_arg3))))
          (cntOf (srcOf (m ((c.tc : Thread nD τ).loc main_arg2)))) (m ((c.tc : Thread nD τ).loc main_arg13)) (m ((c.tc : Thread nD τ).loc main_arg14)) (m ((c.tc : Thread nD τ).loc main_arg15)) := by
  unfold res_main_v131 hostStep hostRelu aggOf cntOf edgeW srcOf dstOf wrap
  rfl

/-! ## Layout operations at an index

A broadcast reads its operand at the entry whose coordinates are the result's along the axes kept and 0 along an
axis of extent one; a transpose of a matrix swaps the two coordinates. -/

section Layout
variable {α : Type}

/-- A column spread over the 128 features: entry (r, j) reads the column at (r, 0). -/
theorem bc_col (y : S50000x1.Idx → α) (j : S50000x128.Idx) :
    broadcastInDim S50000x128 ![0, 1] bcast_S50000x1_S50000x128_0_1 y j
      = y (ix2 (⟨(j 0).val, (j 0).isLt⟩ : Fin 50000) (0 : Fin 1)) :=
  broadcastInDim_apply _ bcast_S50000x1_S50000x128_0_1 y j _ (fun a => match a with
    | ⟨0, _⟩ => by show (j 0).val = if (50000 : Nat) = 1 then 0 else (j 0).val; rw [if_neg (by decide)]
    | ⟨1, _⟩ => by show 0 = if (1 : Nat) = 1 then 0 else (j 1).val; rw [if_pos rfl])

/-- A vector of per-node numbers read as a column: entry (r, 0) reads the vector at r. -/
theorem bc_vec_col (y : S50000.Idx → α) (j : S50000x1.Idx) :
    broadcastInDim S50000x1 ![0] bcast_S50000_S50000x1_0 y j = y (ix1 (⟨(j 0).val, (j 0).isLt⟩ : Fin 50000)) :=
  broadcastInDim_apply _ bcast_S50000_S50000x1_0 y j _ (fun a => match a with
    | ⟨0, _⟩ => by show (j 0).val = if (50000 : Nat) = 1 then 0 else (j 0).val; rw [if_neg (by decide)])

/-- A scalar spread over the nodes reads the scalar everywhere. -/
theorem bc_scalar_vec (y : S_.Idx → α) (j : S50000.Idx) :
    broadcastInDim S50000 ![] bcast_S_S50000 y j = y ix0 :=
  broadcastInDim_apply _ bcast_S_S50000 y j _ (fun a => a.elim0)

/-- A scalar spread over nodes and features reads the scalar everywhere. -/
theorem bc_scalar_full (y : S_.Idx → α) (j : S50000x128.Idx) :
    broadcastInDim S50000x128 ![] bcast_S_S50000x128 y j = y ix0 :=
  broadcastInDim_apply _ bcast_S_S50000x128 y j _ (fun a => a.elim0)

/-- A row spread over the nodes: entry (r, j) reads the row at (0, j). -/
theorem bc_row (y : S1x128.Idx → α) (j : S50000x128.Idx) :
    broadcastInDim S50000x128 ![0, 1] bcast_S1x128_S50000x128_0_1 y j
      = y (ix2 (0 : Fin 1) (⟨(j 1).val, (j 1).isLt⟩ : Fin 128)) :=
  broadcastInDim_apply _ bcast_S1x128_S50000x128_0_1 y j _ (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])

/-- A bias vector read as a row: entry (0, j) reads the vector at j. -/
theorem bc_vec_row (y : S128.Idx → α) (j : S1x128.Idx) :
    broadcastInDim S1x128 ![1] bcast_S128_S1x128_1 y j = y (ix1 (⟨(j 1).val, (j 1).isLt⟩ : Fin 128)) :=
  broadcastInDim_apply _ bcast_S128_S1x128_1 y j _ (fun a => match a with
    | ⟨0, _⟩ => by show (j 1).val = if (128 : Nat) = 1 then 0 else (j 1).val; rw [if_neg (by decide)])

/-- The transposed matrix at (k, j) is the matrix at (j, k). -/
theorem transpose_at (w : S128x128.Idx → α) (j : S128x128.Idx) :
    transpose S128x128 [1, 0] w transposes_S128x128_S128x128_1_0 j
      = w (ix2 (⟨(j 1).val, (j 1).isLt⟩ : Fin 128) (⟨(j 0).val, (j 0).isLt⟩ : Fin 128)) :=
  transpose_apply [1, 0] w transposes_S128x128_S128x128_1_0 j _ (fun b => match b with
    | ⟨0, _⟩ => rfl
    | ⟨1, _⟩ => rfl)

end Layout

/-! ## The dot product with one contracted axis, at an index

Its dimension numbers contract the left operand's second axis against the right operand's first; the result's
two axes are the left operand's first and the right operand's second.  So the entry (r, j) is the sum over k of
left[r, k] · right[k, j]. -/

theorem dot_lhs0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem dot_lhs1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem dot_rhs0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem dot_rhs1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- Over the extended reals the dot product's entry (r, j) is  ∑ₖ left[r, k] · right[k, j]. -/
theorem dot_at (l : FVec Ideal S50000x128 .f32) (r : FVec Ideal S128x128 .f32) (i : S50000x128.Idx) :
    Host.dotGeneral (F := Ideal) dot_S50000x128_S128x128_S50000x128_1_0_0_1_n_n none l r i
      = ∑ k : Fin 128, l (ix2 (⟨(i 0).val, (i 0).isLt⟩ : Fin 50000) k) * r (ix2 k (⟨(i 1).val, (i 1).isLt⟩ : Fin 128)) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k)
      = ix2 (⟨(i 0).val, (i 0).isLt⟩ : Fin 50000) k := funext fun a => Fin.ext (by
    match a with
    | ⟨0, _⟩ => exact dot_lhs0 _ _
    | ⟨1, _⟩ => exact (dot_lhs1 _ _).trans hk)
  have er : dot_S50000x128_S128x128_S50000x128_1_0_0_1_n_n.rhsIdx i ((ValueIdx.contrEquiv1 dot_S50000x128_S128x128_S50000x128_1_0_0_1_n_n 128 rfl rfl).symm k)
      = ix2 k (⟨(i 1).val, (i 1).isLt⟩ : Fin 128) := funext fun a => Fin.ext (by
    match a with
    | ⟨0, _⟩ => exact (dot_rhs0 _ _).trans hk
    | ⟨1, _⟩ => exact dot_rhs1 _ _)
  rw [el, er]

/-! ## The step at an index -/

/-- The host's quotient at an index is the quotient of the entries. -/
theorem hostDivf_at {s : Shape} {φ : FTy} (a b : FVec Ideal s φ) (i : s.Idx) :
    Host.divf a b i = Ideal.div (a i) (b i) := rfl

/-- Entry by entry, the reference's step is the specification's: at node r and feature j,
    (∑ₖ (agg[r,k] / max(cnt[r], 1)) · wl[j,k] + b[j]) + ∑ₖ x[r,k] · wr[j,k]. -/
theorem hostStep_at (x agg : TN) (cnt : TC) (wl : TW) (b : TB) (wr : TW) (i : S50000x128.Idx) :
    hostStep x agg cnt wl b wr i
      = linAt x agg (colOf cnt) (tr wl) (rowOf b) (tr wr) ⟨(i 0).val, (i 0).isLt⟩ ⟨(i 1).val, (i 1).isLt⟩ := by
  unfold hostStep linAt
  rw [addf_apply, addf_apply, dot_at, dot_at, bc_row, bc_vec_row]
  refine congrArg₂ (· + ·) (congrArg₂ (· + ·) (Finset.sum_congr rfl fun k _ => ?_) rfl) (Finset.sum_congr rfl fun k _ => ?_)
  · rw [hostDivf_at, bc_col, bc_vec_col, maximumf_apply, bc_scalar_vec, transpose_at]
    rfl
  · rw [transpose_at]
    rfl

/-- The reference's step is the specification's second-layer step. -/
theorem hostStep_eq (x agg : TN) (cnt : TC) (wl : TW) (b : TB) (wr : TW) :
    hostStep x agg cnt wl b wr = step x agg cnt wl b wr :=
  funext fun i => hostStep_at x agg cnt wl b wr i

/-- The reference's step followed by its clamp is the specification's first-layer step. -/
theorem hostRelu_hostStep_eq (x agg : TN) (cnt : TC) (wl : TW) (b : TB) (wr : TW) :
    hostRelu (hostStep x agg cnt wl b wr) = stepRelu x agg cnt wl b wr := by
  funext i
  unfold hostRelu
  rw [maximumf_apply, hostStep_at, bc_scalar_full]
  rfl

/-! ## The two results -/

/-- The first result: two steps from the first feature array, the first gathering along the edges' second row and
    scattering to their first, the second the other way round. -/
theorem out0 (m : (ℓ : Loc nD τ sig) → Buf (Elt Ideal) ℓ) (c : Dev nD) :
    res_main_v101 (F := Ideal) m c
      = step (stepRelu (m ((c.tc : Thread nD τ).loc main_arg0)) (aggOf (m ((c.tc : Thread nD τ).loc main_arg0)) (dstOf (m ((c.tc : Thread nD τ).loc main_arg2))) (srcOf (m ((c.tc : Thread nD τ).loc main_arg2))) (edgeW (m ((c.tc : Thread nD τ).loc main_arg3)))) (cntOf (srcOf (m ((c.tc : Thread nD τ).loc main_arg2)))) (m ((c.tc : Thread nD τ).loc main_arg7)) (m ((c.tc : Thread nD τ).loc main_arg8)) (m ((c.tc : Thread nD τ).loc main_arg9)))
          (aggOf (stepRelu (m ((c.tc : Thread nD τ).loc main_arg0)) (aggOf (m ((c.tc : Thread nD τ).loc main_arg0)) (dstOf (m ((c.tc : Thread nD τ).loc main_arg2))) (srcOf (m ((c.tc : Thread nD τ).loc main_arg2))) (edgeW (m ((c.tc : Thread nD τ).loc main_arg3)))) (cntOf (srcOf (m ((c.tc : Thread nD τ).loc main_arg2)))) (m ((c.tc : Thread nD τ).loc main_arg7)) (m ((c.tc : Thread nD τ).loc main_arg8)) (m ((c.tc : Thread nD τ).loc main_arg9))) (srcOf (m ((c.tc : Thread nD τ).loc main_arg2))) (dstOf (m ((c.tc : Thread nD τ).loc main_arg2))) (edgeW (m ((c.tc : Thread nD τ).loc main_arg3))))
          (cntOf (dstOf (m ((c.tc : Thread nD τ).loc main_arg2)))) (m ((c.tc : Thread nD τ).loc main_arg10)) (m ((c.tc : Thread nD τ).loc main_arg11)) (m ((c.tc : Thread nD τ).loc main_arg12)) := by
  rw [out0_host, hostRelu_hostStep_eq, hostStep_eq]

/-- The second result: two steps from the second feature array, with the two rows of the edge list exchanged. -/
theorem out1 (m : (ℓ : Loc nD τ sig) → Buf (Elt Ideal) ℓ) (c : Dev nD) :
    res_main_v131 (F := Ideal) m c
      = step (stepRelu (m ((c.tc : Thread nD τ).loc main_arg1)) (aggOf (m ((c.tc : Thread nD τ).loc main_arg1)) (srcOf (m ((c.tc : Thread nD τ).loc main_arg2))) (dstOf (m ((c.tc : Thread nD τ).loc main_arg2))) (edgeW (m ((c.tc : Thread nD τ).loc main_arg3)))) (cntOf (dstOf (m ((c.tc : Thread nD τ).loc main_arg2)))) (m ((c.tc : Thread nD τ).loc main_arg4)) (m ((c.tc : Thread nD τ).loc main_arg5)) (m ((c.tc : Thread nD τ).loc main_arg6)))
          (aggOf (stepRelu (m ((c.tc : Thread nD τ).loc main_arg1)) (aggOf (m ((c.tc : Thread nD τ).loc main_arg1)) (srcOf (m ((c.tc : Thread nD τ).loc main_arg2))) (dstOf (m ((c.tc : Thread nD τ).loc main_arg2))) (edgeW (m ((c.tc : Thread nD τ).loc main_arg3)))) (cntOf (dstOf (m ((c.tc : Thread nD τ).loc main_arg2)))) (m ((c.tc : Thread nD τ).loc main_arg4)) (m ((c.tc : Thread nD τ).loc main_arg5)) (m ((c.tc : Thread nD τ).loc main_arg6))) (dstOf (m ((c.tc : Thread nD τ).loc main_arg2))) (srcOf (m ((c.tc : Thread nD τ).loc main_arg2))) (edgeW (m ((c.tc : Thread nD τ).loc main_arg3))))
          (cntOf (srcOf (m ((c.tc : Thread nD τ).loc main_arg2)))) (m ((c.tc : Thread nD τ).loc main_arg13)) (m ((c.tc : Thread nD τ).loc main_arg14)) (m ((c.tc : Thread nD τ).loc main_arg15)) := by
  rw [out1_host, hostRelu_hostStep_eq, hostStep_eq]

end Cert.Sage.Ref

end
-- ==== Proof.lean ====
/-
  A two-layer directed graph convolution: the tiled kernel program against the plain array program, on the
  extended reals.

  Each layer updates two feature arrays `s`, `t` (50000 nodes × 128 features) from each other along the edges in the two
  directions.  One step gathers the feature rows at one end of every edge, scales them by the logistic function of
  the edge weight, sums them at the other end, divides by max(edge count, 1), and applies two 128 × 128 linear maps and
  a bias; the first layer clamps at zero.  Both programs leave the gather / scatter part to the same host operations
  (the kernel program rounds the features to a shorter float format before the gather and widens them after it: the
  identity on the extended reals, and it computes each direction's edge count once instead of once per layer: the same
  term).  The kernel program then runs the dense part in a kernel over blocks of 5000 nodes, the other program as
  whole-array operations; both are the one whole-array function of Spec, index by index.  No law beyond reading both
  sides at an index is needed, so the precondition (finite inputs) is never opened.

  Modules: Spec (the step as a function of whole arrays), HostPart (the gather / scatter part, kept opaque),
  KernelBlock (the kernel body on one block), KernelArr0 … KernelArr3 (each launch, from blocks to the whole array),
  KernelRun (the program's run with its results named), KernelLayout and KernelChain (the results read back through
  the host operations to the arguments), RefSide (the other program's two results as the same function).
-/
import proofs.«166268_j87548613362348_2_alg».proof.Defs
import proofs.«166268_j87548613362348_2_alg».proof.Proof.Gen.Kernel
import proofs.«166268_j87548613362348_2_alg».proof.Proof.Gen.Kernel.Frame
import proofs.«166268_j87548613362348_2_alg».proof.Proof.Gen.KernelIdeal
import proofs.«166268_j87548613362348_2_alg».proof.Proof.Gen.KernelIdeal.Frame
import proofs.«166268_j87548613362348_2_alg».proof.Proof.Gen.ReferenceIdeal
import proofs.«166268_j87548613362348_2_alg».proof.Proof.Gen.Pre_finite_inputs
import proofs.«166268_j87548613362348_2_alg».proof.Proof.Gen.ReferenceIdeal.Run
import proofs.«166268_j87548613362348_2_alg».proof.Proof.KernelRun
import proofs.«166268_j87548613362348_2_alg».proof.Proof.KernelChain
import proofs.«166268_j87548613362348_2_alg».proof.Proof.RefSide
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The plain array program runs and leaves its arguments unchanged: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the sixteen arguments both programs end with the second layer's two arrays: the kernel
    program's results read back through its launches and host operations, the array program's results read off its
    run, are the same functions of the arguments. -/
theorem algebraic : Cert.algebraic_KernelIdeal_ReferenceIdeal := by
  intro m ρ m' ρ' _ hagree
  refine ⟨fun c => Cert.Sage.Kernel.s2 m c, fun c => Cert.Sage.Kernel.t2 m c, ?_, ?_⟩
  · exact (θ_run Cert.KernelIdeal.defs _ _).mono
      (fun r h c => ⟨(h c).1.trans (Cert.Sage.Kernel.w8_v77 m ρ c), (h c).2.1.trans (Cert.Sage.Kernel.w8_v97 m ρ c), (h c).2.2⟩)
      (Cert.Sage.Kernel.run_results (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨e0, e1, e2, e3, e4, e5, e6, e7, e8, e9, e10, e11, e12, e13, e14, e15⟩ := hagree c
      rw [Cert.Sage.Ref.out0, e0, e2, e3, e7, e8, e9, e10, e11, e12]
      rfl
    · obtain ⟨e0, e1, e2, e3, e4, e5, e6, e7, e8, e9, e10, e11, e12, e13, e14, e15⟩ := hagree c
      rw [Cert.Sage.Ref.out1, e1, e2, e3, e4, e5, e6, e13, e14, e15]
      rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
